-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S384 .f32) (main_arg9 : FVec F S128x128 .f32) (main_arg10 : FVec F S128 .f32) (main_arg11 : FVec F S128x2 .f32) (main_arg12 : FVec F S2 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg11
  let main_cst_18 : FVec F S_ .f32 := constant S_ .f32 0x7F800000#32
  let main_v50 : FVec F S128x2 .f32 := broadcastInDim S128x2 ![] bcast_S_S128x2 main_cst_18
  fn_part3 (F := F) main_arg12 main_v48 main_v49 main_v50

def fn_part1 {F : FTy → Type} [FloatOps F] (main_arg5 : FVec F S384x128 .f32) (main_arg6 : FVec F S384 .f32) (main_arg7 : FVec F S384x128 .f32) (main_arg8 : FVec F S384 .f32) (main_arg9 : FVec F S128x128 .f32) (main_arg10 : FVec F S128 .f32) (main_arg11 : FVec F S128x2 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S384x128 .f32) (main_arg6 : FVec F S384 .f32) (main_arg7 : FVec F S384x128 .f32) (main_arg8 : FVec F S384 .f32) (main_arg9 : FVec F S128x128 .f32) (main_arg10 : FVec F S128 .f32) (main_arg11 : FVec F S128x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x2 : Shape := ⟨2, ![128, 2]⟩
abbrev S2 : Shape := ⟨1, ![2]⟩
abbrev S1x128 : Shape := ⟨2, ![1, 128]⟩
abbrev S2000x128 : Shape := ⟨2, ![2000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S1x384 : Shape := ⟨2, ![1, 384]⟩
abbrev S2000x384 : Shape := ⟨2, ![2000, 384]⟩
abbrev S1x2 : Shape := ⟨2, ![1, 2]⟩
abbrev S100000x2 : Shape := ⟨2, ![100000, 2]⟩
abbrev S2000x2 : Shape := ⟨2, ![2000, 2]⟩
abbrev S2000 : Shape := ⟨1, ![2000]⟩
abbrev S2000x1 : Shape := ⟨2, ![2000, 1]⟩

abbrev nBuf : Space → Nat
  | .hbm => 65
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S384, .f32⟩
  | .hbm, ⟨7, _⟩ => ⟨S384x128, .f32⟩
  | .hbm, ⟨8, _⟩ => ⟨S384, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x128, .f32⟩
  | .hbm, ⟨14, _⟩ => ⟨S100000x128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x384, .f32⟩
  | .hbm, ⟨36, _⟩ => ⟨S128x384, .f32⟩
  | .hbm, ⟨37, _⟩ => ⟨S1x384, .f32⟩
  | .hbm, ⟨38, _⟩ => ⟨S1x384, .f32⟩
  | .hbm, ⟨39, _⟩ => ⟨S1x128, .f32⟩
  | .hbm, ⟨40, _⟩ => ⟨S100000x128, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x384, .f32⟩
  | .hbm, ⟨62, _⟩ => ⟨S1x384, .f32⟩
  | .hbm, ⟨63, _⟩ => ⟨S1x2, .f32⟩
  | .hbm, ⟨64, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x384, .f32⟩
  | .local _ .vmem, ⟨11, _⟩ => ⟨S1x384, .f32⟩
  | .local _ .vmem, ⟨12, _⟩ => ⟨S128x384, .f32⟩
  | .local _ .vmem, ⟨13, _⟩ => ⟨S1x384, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x384, .f32⟩
  | .local _ .vmem, ⟨23, _⟩ => ⟨S1x384, .f32⟩
  | .local _ .vmem, ⟨24, _⟩ => ⟨S128x384, .f32⟩
  | .local _ .vmem, ⟨25, _⟩ => ⟨S1x384, .f32⟩
  | .local _ .vmem, ⟨26, _⟩ => ⟨S128x2, .f32⟩
  | .local _ .vmem, ⟨27, _⟩ => ⟨S1x2, .f32⟩
  | .local _ .vmem, ⟨28, _⟩ => ⟨S2000x2, .f32⟩
  | .local _ .vmem, ⟨29, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_1 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S384x128_S128x384_1_0 : S384x128.Transposes [1, 0] S128x384
  shapeCasts_S384_S1x384 : S384.ShapeCasts S1x384
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x384_S2000x384_1_0_0_1_n_n_wf : DotDims.WF S2000x128 S128x384 S2000x384 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x384.size a ≤ S1x384.size a
  hwx2_3 : ∀ i : grid2.Coords, EltTy.bits .f32 = 32 ∨ (Rect.block (s := S1x384) S1x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .f32 = 32 ∨ (Rect.block (s := S128x384) S128x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x2.size a ≤ S100000x2.size a
  hwx2_8 : ∀ i : grid2.Coords, EltTy.bits .f32 = 32 ∨ (Rect.block (s := S100000x2) S2000x2.size (cc2_transform_8 i) (hinb2_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45) S2000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x2 : Shape := ⟨2, ![128, 2]⟩
abbrev S2 : Shape := ⟨1, ![2]⟩
abbrev S1x128 : Shape := ⟨2, ![1, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S100000x2 : Shape := ⟨2, ![100000, 2]⟩
abbrev S1x2 : Shape := ⟨2, ![1, 2]⟩
abbrev S100000 : Shape := ⟨1, ![100000]⟩
abbrev S100000x1 : Shape := ⟨2, ![100000, 1]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S384x128, .f32⟩
  | 6 => ⟨S384, .f32⟩
  | 7 => ⟨S384x128, .f32⟩
  | 8 => ⟨S384, .f32⟩
  | 9 => ⟨S128x128, .f32⟩
  | 10 => ⟨S128, .f32⟩
  | 11 => ⟨S128x2, .f32⟩
  | 12 => ⟨S2, .f32⟩
  | 13 => ⟨S100000x128, .f32⟩
  | 14 => ⟨S1x128, .f32⟩
  | 15 => ⟨S100000x128, .f32⟩
  | 16 => ⟨S100000x128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1600000x1, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S128x384, .f32⟩
  | 38 => ⟨S100000x384, .f32⟩
  | 39 => ⟨S1x384, .f32⟩
  | 40 => ⟨S100000x384, .f32⟩
  | 41 => ⟨S100000x384, .f32⟩
  | 42 => ⟨S128x384, .f32⟩
  | 43 => ⟨S100000x384, .f32⟩
  | 44 => ⟨S1x384, .f32⟩
  | 45 => ⟨S100000x384, .f32⟩
  | 46 => ⟨S100000x384, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x1600000, .i32⟩
  | 85 => ⟨S1600000, .i32⟩
  | 86 => ⟨S1x1600000, .i32⟩
  | 87 => ⟨S1600000, .i32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x1, .f32⟩
  | 98 => ⟨S1600000x128, .f32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S128x384, .f32⟩
  | 105 => ⟨S100000x384, .f32⟩
  | 106 => ⟨S1x384, .f32⟩
  | 107 => ⟨S100000x384, .f32⟩
  | 108 => ⟨S100000x384, .f32⟩
  | 109 => ⟨S128x384, .f32⟩
  | 110 => ⟨S100000x384, .f32⟩
  | 111 => ⟨S1x384, .f32⟩
  | 112 => ⟨S100000x384, .f32⟩
  | 113 => ⟨S100000x384, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S100000x2, .f32⟩
  | 20 => ⟨S1x2, .f32⟩
  | 21 => ⟨S100000x2, .f32⟩
  | 22 => ⟨S100000x2, .f32⟩
  | 23 => ⟨S_, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x2, .f32⟩
  | 30 => ⟨S100000x2, .f32⟩
  | 31 => ⟨S100000x2, .f32⟩
  | 32 => ⟨S_, .f32⟩
  | 33 => ⟨S100000, .f32⟩
  | 34 => ⟨S100000x1, .f32⟩
  | 35 => ⟨S100000x1, .f32⟩
  | 36 => ⟨S100000x2, .f32⟩
  | 37 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_6 : Ref sig .tc := ⟨.hbm, 88, rfl⟩
abbrev main_v67 : Ref sig .tc := ⟨.hbm, 89, rfl⟩
abbrev main_v68 : Ref sig .tc := ⟨.hbm, 90, rfl⟩
abbrev main_c_7 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_8 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_9 : Ref sig .tc := ⟨.hbm, 123, rfl⟩
abbrev main_v99 : Ref sig .tc := ⟨.hbm, 124, rfl⟩
abbrev main_v100 : Ref sig .tc := ⟨.hbm, 125, rfl⟩
abbrev main_cst_10 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_11 : Ref sig .tc := ⟨.hbm, 132, rfl⟩
abbrev main_v106 : Ref sig .tc := ⟨.hbm, 133, rfl⟩
abbrev main_v107 : Ref sig .tc := ⟨.hbm, 134, rfl⟩
abbrev main_cst_12 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_13 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_call0_cst : Ref sig .tc := ⟨.hbm, 151, rfl⟩
abbrev main_call0_v0 : Ref sig .tc := ⟨.hbm, 152, rfl⟩
abbrev main_call0_cst_0 : Ref sig .tc := ⟨.hbm, 153, rfl⟩
abbrev main_call0_v1 : Ref sig .tc := ⟨.hbm, 154, rfl⟩
abbrev main_call0_v2 : Ref sig .tc := ⟨.hbm, 155, rfl⟩
abbrev main_call0_v3 : Ref sig .tc := ⟨.hbm, 156, rfl⟩
abbrev main_call0_v4 : Ref sig .tc := ⟨.hbm, 157, rfl⟩
abbrev main_call0_v5 : Ref sig .tc := ⟨.hbm, 158, rfl⟩
abbrev main_call0_v6 : Ref sig .tc := ⟨.hbm, 159, rfl⟩
abbrev main_call0_cst_1 : Ref sig .tc := ⟨.hbm, 160, rfl⟩
abbrev main_call0_v7 : Ref sig .tc := ⟨.hbm, 161, rfl⟩
abbrev main_call0_v8 : Ref sig .tc := ⟨.hbm, 162, rfl⟩
abbrev main_call0_v9 : Ref sig .tc := ⟨.hbm, 163, rfl⟩
abbrev main_call0_v10 : Ref sig .tc := ⟨.hbm, 164, rfl⟩
abbrev main_v122 : Ref sig .tc := ⟨.hbm, 165, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«118627_j73658689126816_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibGruRows.lean ====
/-
  Three row-wise layers of a gated graph network on a matrix of node features, over the extended reals.

  A dense layer sends row r of X to  Σ_k X(r,k)·W(k,j) + b(j)  (Affine.affine). A gated recurrent cell takes a message row
  and a state row: with  gi = msg·Wi + bi  and  gh = h·Wh + bh, both of 3·128 columns cut into three gates,
    r = σ(gi₀ + gh₀),  z = σ(gi₁ + gh₁),  n = tanh(gi₂ + r·gh₂),  out = (1 − z)·n + z·h,
  entry by entry, where σ is the logistic function and 1 is the f32 word of 1.0. The log-softmax of a row of two logits
  subtracts the row maximum m and then  log Σ_k exp(x_k − m).
  Every layer here reads, for entry (p, q) of its result, row p of its row-indexed operands only: a block of rows cut out
  of the operands gives the same rows of the result (the _row lemmas). Nothing here asks an entry to be finite.
-/
import Idealize.ShloMosaic.PureOps.Ideal.Laws
import Idealize.ShloMosaic.Lib.ValueIdx
import Idealize.ShloMosaic.Lib.Pipeline.Value
import proofs.«118627_j73658689126816_1_alg».proof.Proof.LibAffine

noncomputable section

namespace Cert.GatedRows

open Idealize.ShloMosaic Idealize.ShloMosaic.ValueIdx Idealize.ShloMosaic.Affine

variable {A B K M : Nat}

/-- Column q of gate g among the 3 · 128 gate columns. -/
abbrev gcol (g : Fin 3) (q : Fin 128) : Fin 384 := ⟨128 * g.val + q.val, by have := g.isLt; have := q.isLt; omega⟩

/-- One entry of the gated recurrent cell from the two gate pre-activations gi, gh and the state H. -/
def gruAt (gi gh : FVec Ideal ⟨2, ![A, 384]⟩ .f32) (H : FVec Ideal ⟨2, ![A, 128]⟩ .f32) (p : Fin A) (q : Fin 128) : EReal :=
  (Ideal.ofBits .f32 0x3F800000#32 - Ideal.logistic (gi (ix2 p (gcol 1 q)) + gh (ix2 p (gcol 1 q))))
      * Ideal.tanh (gi (ix2 p (gcol 2 q)) + Ideal.logistic (gi (ix2 p (gcol 0 q)) + gh (ix2 p (gcol 0 q))) * gh (ix2 p (gcol 2 q)))
    + Ideal.logistic (gi (ix2 p (gcol 1 q)) + gh (ix2 p (gcol 1 q))) * H (ix2 p q)

/-- The gated recurrent cell on the rows of a message matrix Ms and a state matrix H. -/
def gru {φ : FTy} (Ms H : FVec Ideal ⟨2, ![A, 128]⟩ .f32) (Wi : FVec Ideal ⟨2, ![128, 384]⟩ φ) (bi : FVec Ideal ⟨2, ![1, 384]⟩ .f32)
    (Wh : FVec Ideal ⟨2, ![128, 384]⟩ φ) (bh : FVec Ideal ⟨2, ![1, 384]⟩ .f32) : FVec Ideal ⟨2, ![A, 128]⟩ .f32 :=
  fun i => gruAt (affine Ms Wi bi) (affine H Wh bh) H ⟨(i 0).val, idx2_lt0 i⟩ ⟨(i 1).val, idx2_lt1 i⟩

theorem gru_ix2 {φ : FTy} (Ms H : FVec Ideal ⟨2, ![A, 128]⟩ .f32) (Wi : FVec Ideal ⟨2, ![128, 384]⟩ φ) (bi : FVec Ideal ⟨2, ![1, 384]⟩ .f32)
    (Wh : FVec Ideal ⟨2, ![128, 384]⟩ φ) (bh : FVec Ideal ⟨2, ![1, 384]⟩ .f32) (p : Fin A) (q : Fin 128) :
    gru Ms H Wi bi Wh bh (ix2 p q) = gruAt (affine Ms Wi bi) (affine H Wh bh) H p q := rfl

/-- The row maximum of two logits as both programs compute it: a fold of max from −∞, then once more max with −∞. -/
def rowMax (L : FVec Ideal ⟨2, ![A, 2]⟩ .f32) (p : Fin A) : EReal :=
  max (Ideal.ofBits .f32 0xFF800000#32)
    ((Finset.univ : Finset (Fin 2)).fold max (Ideal.ofBits .f32 0xFF800000#32) (fun k => L (ix2 p k)))

/-- The log-softmax along rows of two logits. -/
def logSoftmax (L : FVec Ideal ⟨2, ![A, 2]⟩ .f32) : FVec Ideal ⟨2, ![A, 2]⟩ .f32 :=
  fun i => (L i - rowMax L ⟨(i 0).val, idx2_lt0 i⟩)
    - Ideal.log (∑ k : Fin 2, Ideal.exp (L (ix2 ⟨(i 0).val, idx2_lt0 i⟩ k) - rowMax L ⟨(i 0).val, idx2_lt0 i⟩))

theorem logSoftmax_ix2 (L : FVec Ideal ⟨2, ![A, 2]⟩ .f32) (p : Fin A) (c : Fin 2) :
    logSoftmax L (ix2 p c) = (L (ix2 p c) - rowMax L p) - Ideal.log (∑ k : Fin 2, Ideal.exp (L (ix2 p k) - rowMax L p)) := rfl

/-- The cell followed by a dense layer. -/
def gruDense {φ : FTy} (Ms H : FVec Ideal ⟨2, ![A, 128]⟩ .f32) (Wi : FVec Ideal ⟨2, ![128, 384]⟩ φ) (bi : FVec Ideal ⟨2, ![1, 384]⟩ .f32)
    (Wh : FVec Ideal ⟨2, ![128, 384]⟩ φ) (bh : FVec Ideal ⟨2, ![1, 384]⟩ .f32) (Wl : FVec Ideal ⟨2, ![128, M]⟩ φ)
    (bl : FVec Ideal ⟨2, ![1, M]⟩ .f32) : FVec Ideal ⟨2, ![A, M]⟩ .f32 :=
  affine (gru Ms H Wi bi Wh bh) Wl bl

/-- The cell, a dense layer onto two classes, and the log-softmax of each row. -/
def gruClassify {φ : FTy} (Ms H : FVec Ideal ⟨2, ![A, 128]⟩ .f32) (Wi : FVec Ideal ⟨2, ![128, 384]⟩ φ) (bi : FVec Ideal ⟨2, ![1, 384]⟩ .f32)
    (Wh : FVec Ideal ⟨2, ![128, 384]⟩ φ) (bh : FVec Ideal ⟨2, ![1, 384]⟩ .f32) (Wo : FVec Ideal ⟨2, ![128, 2]⟩ φ)
    (bo : FVec Ideal ⟨2, ![1, 2]⟩ .f32) : FVec Ideal ⟨2, ![A, 2]⟩ .f32 :=
  logSoftmax (gruDense Ms H Wi bi Wh bh Wo bo)

/-! ## The gates: three column ranges of a block of pre-activations -/

theorem gate0_at {α : Type} (G : (⟨2, ![A, 384]⟩ : Shape).Idx → α) (h : (⟨2, ![A, 384]⟩ : Shape).Slices ![0, 0] ⟨2, ![A, 128]⟩)
    (p : Fin A) (q : Fin 128) : extractStridedSlice ⟨2, ![A, 128]⟩ ![0, 0] G h (ix2 p q) = G (ix2 p (gcol 0 q)) :=
  extractStridedSlice_apply ![0, 0] G h (ix2 p q) (ix2 p (gcol 0 q)) (fun a => by
    match a with
    | ⟨0, _⟩ => show p.val = 0 + p.val; omega
    | ⟨1, _⟩ => show 128 * 0 + q.val = 0 + q.val; omega)

theorem gate1_at {α : Type} (G : (⟨2, ![A, 384]⟩ : Shape).Idx → α) (h : (⟨2, ![A, 384]⟩ : Shape).Slices ![0, 128] ⟨2, ![A, 128]⟩)
    (p : Fin A) (q : Fin 128) : extractStridedSlice ⟨2, ![A, 128]⟩ ![0, 128] G h (ix2 p q) = G (ix2 p (gcol 1 q)) :=
  extractStridedSlice_apply ![0, 128] G h (ix2 p q) (ix2 p (gcol 1 q)) (fun a => by
    match a with
    | ⟨0, _⟩ => show p.val = 0 + p.val; omega
    | ⟨1, _⟩ => show 128 * 1 + q.val = 128 + q.val; omega)

theorem gate2_at {α : Type} (G : (⟨2, ![A, 384]⟩ : Shape).Idx → α) (h : (⟨2, ![A, 384]⟩ : Shape).Slices ![0, 256] ⟨2, ![A, 128]⟩)
    (p : Fin A) (q : Fin 128) : extractStridedSlice ⟨2, ![A, 128]⟩ ![0, 256] G h (ix2 p q) = G (ix2 p (gcol 2 q)) :=
  extractStridedSlice_apply ![0, 256] G h (ix2 p q) (ix2 p (gcol 2 q)) (fun a => by
    match a with
    | ⟨0, _⟩ => show p.val = 0 + p.val; omega
    | ⟨1, _⟩ => show 128 * 2 + q.val = 256 + q.val; omega)

/-! ## Entry (p, q) reads row p only -/

/-- A dense layer: a block whose row p is row r of the whole matrix gives row r of the whole result. -/
theorem affine_row {φ : FTy} (Xb : FVec Ideal ⟨2, ![B, K]⟩ .f32) (X : FVec Ideal ⟨2, ![A, K]⟩ .f32) (W : FVec Ideal ⟨2, ![K, M]⟩ φ)
    (b : FVec Ideal ⟨2, ![1, M]⟩ .f32) (p : Fin B) (r : Fin A) (h : ∀ k : Fin K, Xb (ix2 p k) = X (ix2 r k)) (q : Fin M) :
    affine Xb W b (ix2 p q) = affine X W b (ix2 r q) := by
  rw [affine_ix2, affine_ix2]
  exact congrArg (· + b (ix2 (0 : Fin 1) q)) (Finset.sum_congr rfl fun k _ => by rw [h k])

theorem gruAt_row (gib ghb : FVec Ideal ⟨2, ![B, 384]⟩ .f32) (Hb : FVec Ideal ⟨2, ![B, 128]⟩ .f32)
    (gi gh : FVec Ideal ⟨2, ![A, 384]⟩ .f32) (H : FVec Ideal ⟨2, ![A, 128]⟩ .f32) (p : Fin B) (r : Fin A)
    (hi : ∀ j : Fin 384, gib (ix2 p j) = gi (ix2 r j)) (hh : ∀ j : Fin 384, ghb (ix2 p j) = gh (ix2 r j))
    (hH : ∀ k : Fin 128, Hb (ix2 p k) = H (ix2 r k)) (q : Fin 128) : gruAt gib ghb Hb p q = gruAt gi gh H r q := by
  unfold gruAt
  rw [hi, hi, hi, hh, hh, hh, hH]

theorem gru_row {φ : FTy} (Mb Hb : FVec Ideal ⟨2, ![B, 128]⟩ .f32) (Ms H : FVec Ideal ⟨2, ![A, 128]⟩ .f32)
    (Wi : FVec Ideal ⟨2, ![128, 384]⟩ φ) (bi : FVec Ideal ⟨2, ![1, 384]⟩ .f32) (Wh : FVec Ideal ⟨2, ![128, 384]⟩ φ)
    (bh : FVec Ideal ⟨2, ![1, 384]⟩ .f32) (p : Fin B) (r : Fin A) (hM : ∀ k : Fin 128, Mb (ix2 p k) = Ms (ix2 r k))
    (hH : ∀ k : Fin 128, Hb (ix2 p k) = H (ix2 r k)) (q : Fin 128) :
    gru Mb Hb Wi bi Wh bh (ix2 p q) = gru Ms H Wi bi Wh bh (ix2 r q) := by
  rw [gru_ix2, gru_ix2]
  exact gruAt_row _ _ _ _ _ _ p r (fun j => affine_row Mb Ms Wi bi p r hM j) (fun j => affine_row Hb H Wh bh p r hH j) hH q

theorem gruDense_row {φ : FTy} (Mb Hb : FVec Ideal ⟨2, ![B, 128]⟩ .f32) (Ms H : FVec Ideal ⟨2, ![A, 128]⟩ .f32)
    (Wi : FVec Ideal ⟨2, ![128, 384]⟩ φ) (bi : FVec Ideal ⟨2, ![1, 384]⟩ .f32) (Wh : FVec Ideal ⟨2, ![128, 384]⟩ φ)
    (bh : FVec Ideal ⟨2, ![1, 384]⟩ .f32) (Wl : FVec Ideal ⟨2, ![128, M]⟩ φ) (bl : FVec Ideal ⟨2, ![1, M]⟩ .f32)
    (p : Fin B) (r : Fin A) (hM : ∀ k : Fin 128, Mb (ix2 p k) = Ms (ix2 r k))
    (hH : ∀ k : Fin 128, Hb (ix2 p k) = H (ix2 r k)) (q : Fin M) :
    gruDense Mb Hb Wi bi Wh bh Wl bl (ix2 p q) = gruDense Ms H Wi bi Wh bh Wl bl (ix2 r q) :=
  affine_row _ _ Wl bl p r (fun k => gru_row Mb Hb Ms H Wi bi Wh bh p r hM hH k) q

theorem rowMax_row (Lb : FVec Ideal ⟨2, ![B, 2]⟩ .f32) (L : FVec Ideal ⟨2, ![A, 2]⟩ .f32) (p : Fin B) (r : Fin A)
    (h : ∀ k : Fin 2, Lb (ix2 p k) = L (ix2 r k)) : rowMax Lb p = rowMax L r := by
  unfold rowMax
  rw [show (fun k => Lb (ix2 p k)) = (fun k => L (ix2 r k)) from funext h]

theorem logSoftmax_row (Lb : FVec Ideal ⟨2, ![B, 2]⟩ .f32) (L : FVec Ideal ⟨2, ![A, 2]⟩ .f32) (p : Fin B) (r : Fin A)
    (h : ∀ k : Fin 2, Lb (ix2 p k) = L (ix2 r k)) (c : Fin 2) : logSoftmax Lb (ix2 p c) = logSoftmax L (ix2 r c) := by
  rw [logSoftmax_ix2, logSoftmax_ix2, rowMax_row Lb L p r h, h c]
  exact congrArg (fun s => (L (ix2 r c) - rowMax L r) - Ideal.log s) (Finset.sum_congr rfl fun k _ => by rw [h k])

theorem gruClassify_row {φ : FTy} (Mb Hb : FVec Ideal ⟨2, ![B, 128]⟩ .f32) (Ms H : FVec Ideal ⟨2, ![A, 128]⟩ .f32)
    (Wi : FVec Ideal ⟨2, ![128, 384]⟩ φ) (bi : FVec Ideal ⟨2, ![1, 384]⟩ .f32) (Wh : FVec Ideal ⟨2, ![128, 384]⟩ φ)
    (bh : FVec Ideal ⟨2, ![1, 384]⟩ .f32) (Wo : FVec Ideal ⟨2, ![128, 2]⟩ φ) (bo : FVec Ideal ⟨2, ![1, 2]⟩ .f32)
    (p : Fin B) (r : Fin A) (hM : ∀ k : Fin 128, Mb (ix2 p k) = Ms (ix2 r k))
    (hH : ∀ k : Fin 128, Hb (ix2 p k) = H (ix2 r k)) (c : Fin 2) :
    gruClassify Mb Hb Wi bi Wh bh Wo bo (ix2 p c) = gruClassify Ms H Wi bi Wh bh Wo bo (ix2 r c) :=
  logSoftmax_row _ _ p r (fun k => gruDense_row Mb Hb Ms H Wi bi Wh bh Wo bo p r hM hH k) c

end Cert.GatedRows

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«118627_j73658689126816_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.BodyLayers.lean ====
/-
  What the three kernel bodies compute on one block of 2000 rows, read at an entry, over the extended reals.

  Rounding an operand to bf16 is the identity here, a matrix product into a zero accumulator is the sum over the contracted
  coordinate, and a one-row bias is repeated down the rows; so the first body is a dense layer, the gate pre-activations
  of the other two are dense layers of 384 columns whose three column ranges of 128 are the gates, and the recurrent cell,
  the dense layer after it and the log-softmax of two logits are the row layers of LibGruRows, entry by entry.
  The row maximum of the two logits is the lane maximum from −∞ followed by one more maximum with −∞; the normaliser is
  the lane sum of the exponentials; both are kept as a column and repeated along the row.
-/
import proofs.«118627_j73658689126816_1_alg».proof.Proof.Gen.KernelIdeal.Skeleton
import proofs.«118627_j73658689126816_1_alg».proof.Proof.LibGruRows
import proofs.«118627_j73658689126816_1_alg».proof.Proof.LibColumn
import proofs.«118627_j73658689126816_1_alg».proof.Proof.LibRowReduce
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Idealize.ShloMosaic.Affine Cert.KernelIdeal Cert.KernelIdeal.Gen Cert.GatedRows

/-! ## Pointwise operations at an index -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-! ## A dense layer in a body's spelling, as a whole block -/

/-- Rows rounded to bf16 times weights into a zero accumulator, plus the bias row repeated: the dense layer. -/
theorem dense_block {K M : Nat} {φw : FTy} (X : FVec Ideal ⟨2, ![2000, K]⟩ .f32) (W : FVec Ideal ⟨2, ![K, M]⟩ φw)
    (b : FVec Ideal ⟨2, ![1, M]⟩ .f32) (ht : FTy.bf16.bits < FTy.f32.bits)
    (hb : (⟨2, ![1, M]⟩ : Shape).Broadcasts ⟨2, ![2000, M]⟩) :
    addf (FloatOps.matmul (DotDims.plain 2000 K M) none (truncf .bf16 X ht) W (constant ⟨2, ![2000, M]⟩ .f32 0x00000000#32))
        (broadcastTo ⟨2, ![2000, M]⟩ b hb) = affine X W b := by
  funext i
  obtain ⟨p, q, rfl⟩ : ∃ (p : Fin 2000) (q : Fin M), i = ix2 p q := ⟨i 0, i 1, eq_ix2 i⟩
  exact Affine.body_apply none X W b ht hb p q

/-! ## The first body -/

theorem first_block (x0 : FVec Ideal S2000x128 .f32) (x1 : FVec Ideal S128x128 .f32) (x2 : FVec Ideal S1x128 .f32) :
    k0_pay1 (F := Ideal) x0 x1 x2 = affine x0 (truncf .bf16 x1 bitsLt_bf16_f32) x2 := by
  unfold k0_pay1
  simp only [shapeCast_self]
  exact dense_block x0 (truncf .bf16 x1 bitsLt_bf16_f32) x2 bitsLt_bf16_f32 broadcasts_S1x128_S2000x128

/-! ## The recurrent cell of the second and third bodies -/

/-- The cell's body text over the two pre-activation blocks and the state block, at an entry. -/
theorem cell_at (GI GH : FVec Ideal S2000x384 .f32) (H : FVec Ideal S2000x128 .f32) (p : Fin 2000) (q : Fin 128) :
    addf (mulf (subf (broadcast S2000x128 (Scalar.ofBits (F := Ideal) .f32 0x3F800000#32))
            (logistic (addf (extractStridedSlice S2000x128 ![0, 128] GI slices_S2000x384_o0_128_S2000x128)
              (extractStridedSlice S2000x128 ![0, 128] GH slices_S2000x384_o0_128_S2000x128))))
          (tanh (addf (extractStridedSlice S2000x128 ![0, 256] GI slices_S2000x384_o0_256_S2000x128)
            (mulf (logistic (addf (extractStridedSlice S2000x128 ![0, 0] GI slices_S2000x384_o0_0_S2000x128)
                (extractStridedSlice S2000x128 ![0, 0] GH slices_S2000x384_o0_0_S2000x128)))
              (extractStridedSlice S2000x128 ![0, 256] GH slices_S2000x384_o0_256_S2000x128)))))
        (mulf (logistic (addf (extractStridedSlice S2000x128 ![0, 128] GI slices_S2000x384_o0_128_S2000x128)
            (extractStridedSlice S2000x128 ![0, 128] GH slices_S2000x384_o0_128_S2000x128))) H) (ix2 p q)
      = gruAt GI GH H p q := by
  simp only [ValueIdx.addf_apply, ValueIdx.mulf_apply, ValueIdx.subf_apply, ValueIdx.broadcast_apply, logistic_at, tanh_at,
    gate0_at, gate1_at, gate2_at]
  rfl

theorem cell_block (x0 x1 : FVec Ideal S2000x128 .f32) (x2 x4 : FVec Ideal S128x384 .f32) (x3 x5 : FVec Ideal S1x384 .f32) :
    k1_pay2 (F := Ideal) x0 x1 x2 x4 x3 x5
      = gru x0 x1 (truncf .bf16 x2 bitsLt_bf16_f32) x3 (truncf .bf16 x4 bitsLt_bf16_f32) x5 := by
  unfold k1_pay2
  simp only [shapeCast_self]
  funext i
  obtain ⟨p, q, rfl⟩ : ∃ (p : Fin 2000) (q : Fin 128), i = ix2 p q := ⟨i 0, i 1, eq_ix2 i⟩
  have e1 := dense_block x0 (truncf .bf16 x2 bitsLt_bf16_f32) x3 bitsLt_bf16_f32 broadcasts_S1x384_S2000x384
  have e2 := dense_block x1 (truncf .bf16 x4 bitsLt_bf16_f32) x5 bitsLt_bf16_f32 broadcasts_S1x384_S2000x384
  rw [gru_ix2, ← e1, ← e2]
  exact cell_at _ _ x1 p q

/-- The third body's cell is the same text. -/
theorem cell_block' (x0 x1 : FVec Ideal S2000x128 .f32) (x2 x4 : FVec Ideal S128x384 .f32) (x3 x5 : FVec Ideal S1x384 .f32) :
    k2_pay2 (F := Ideal) x0 x1 x2 x4 x3 x5
      = gru x0 x1 (truncf .bf16 x2 bitsLt_bf16_f32) x3 (truncf .bf16 x4 bitsLt_bf16_f32) x5 :=
  cell_block x0 x1 x2 x4 x3 x5

/-! ## The dense layer after the cell (second body) -/

theorem after_cell_block (y : FVec Ideal S2000x128 .f32) (w : FVec Ideal S128x128 .bf16) (b : FVec Ideal S1x128 .f32) :
    k1_pay1 (F := Ideal) y w b = affine y w b := by
  unfold k1_pay1
  simp only [shapeCast_self]
  exact dense_block y w b bitsLt_bf16_f32 broadcasts_S1x128_S2000x128

/-- The second body's stored block: the cell, then the dense layer. -/
theorem second_block (x0 x1 : FVec Ideal S2000x128 .f32) (x2 x4 : FVec Ideal S128x384 .f32) (x3 x5 : FVec Ideal S1x384 .f32)
    (x6 : FVec Ideal S128x128 .f32) (x7 : FVec Ideal S1x128 .f32) :
    k1_pay1 (F := Ideal) (k1_pay2 x0 x1 x2 x4 x3 x5) (k1_pay3 x6) x7
      = gruDense x0 x1 (truncf .bf16 x2 bitsLt_bf16_f32) x3 (truncf .bf16 x4 bitsLt_bf16_f32) x5
          (truncf .bf16 x6 bitsLt_bf16_f32) x7 := by
  rw [after_cell_block, cell_block]
  rfl

/-! ## The classifier after the cell (third body): two logits and their log-softmax -/

/-- The body's log-softmax text over a block of logits. -/
def lsmText (L : FVec Ideal S2000x2 .f32) : FVec Ideal S2000x2 .f32 :=
  subf (subf L (broadcastTo S2000x2 (shapeCast S2000x1 (maximumf (broadcast S2000 (Scalar.ofBits (F := Ideal) .f32 0xFF800000#32))
        (multiReduction .maximumf [1] S2000 L 0xFF800000#32 reduces_S2000x2_S2000 (.inl rfl) rfl)) shapeCasts_S2000_S2000x1)
      broadcasts_S2000x1_S2000x2))
    (broadcastTo S2000x2 (log (shapeCast S2000x1 (multiReduction .add [1] S2000
        (exp (subf L (broadcastTo S2000x2 (shapeCast S2000x1 (maximumf (broadcast S2000 (Scalar.ofBits (F := Ideal) .f32 0xFF800000#32))
          (multiReduction .maximumf [1] S2000 L 0xFF800000#32 reduces_S2000x2_S2000 (.inl rfl) rfl)) shapeCasts_S2000_S2000x1)
          broadcasts_S2000x1_S2000x2)))
        0x00000000#32 reduces_S2000x2_S2000 (.inl rfl) rfl) shapeCasts_S2000_S2000x1)) broadcasts_S2000x1_S2000x2)

/-- The row maximum kept as a column and repeated along the row. -/
theorem rowMax_at (L : FVec Ideal S2000x2 .f32) (p : Fin 2000) (c : Fin 2) :
    broadcastTo S2000x2 (shapeCast S2000x1 (maximumf (broadcast S2000 (Scalar.ofBits (F := Ideal) .f32 0xFF800000#32))
        (multiReduction .maximumf [1] S2000 L 0xFF800000#32 reduces_S2000x2_S2000 (.inl rfl) rfl)) shapeCasts_S2000_S2000x1)
      broadcasts_S2000x1_S2000x2 (ix2 p c) = rowMax L p := by
  rw [Column.broadcastTo_a1_ab_apply, Column.shapeCast_a_a1_apply, ValueIdx.maximumf_apply, ValueIdx.broadcast_apply]
  exact congrArg (max (Ideal.ofBits .f32 0xFF800000#32))
    (RowReduce.multiReduction_maximumf_cols (a := 2000) (b := 2) L 0xFF800000#32 reduces_S2000x2_S2000 (.inl rfl) rfl p)

theorem lsmText_at (L : FVec Ideal S2000x2 .f32) (p : Fin 2000) (c : Fin 2) : lsmText L (ix2 p c) = logSoftmax L (ix2 p c) := by
  unfold lsmText
  rw [ValueIdx.subf_apply, ValueIdx.subf_apply, rowMax_at, Column.broadcastTo_a1_ab_apply, log_at, Column.shapeCast_a_a1_apply,
    logSoftmax_ix2]
  refine congrArg (fun s => (L (ix2 p c) - rowMax L p) - Ideal.log s) ?_
  refine (RowReduce.multiReduction_add_cols (a := 2000) (b := 2) _ 0x00000000#32 reduces_S2000x2_S2000 (.inl rfl) rfl p).trans
    (Finset.sum_congr rfl fun k _ => ?_)
  rw [exp_at, ValueIdx.subf_apply, rowMax_at]

theorem classifier_block (y : FVec Ideal S2000x128 .f32) (w : FVec Ideal S128x2 .bf16) (b : FVec Ideal S1x2 .f32) :
    k2_pay1 (F := Ideal) y w b = logSoftmax (affine y w b) := by
  have e := dense_block y w b bitsLt_bf16_f32 broadcasts_S1x2_S2000x2
  have h : k2_pay1 (F := Ideal) y w b = lsmText (affine y w b) := by
    rw [← e]
    unfold k2_pay1 lsmText
    simp only [shapeCast_self]
    rfl
  rw [h]
  funext i
  obtain ⟨p, c, rfl⟩ : ∃ (p : Fin 2000) (c : Fin 2), i = ix2 p c := ⟨i 0, i 1, eq_ix2 i⟩
  exact lsmText_at _ p c

/-- The third body's stored block: the cell, the dense layer onto two classes, the log-softmax. -/
theorem third_block (x0 x1 : FVec Ideal S2000x128 .f32) (x2 x4 : FVec Ideal S128x384 .f32) (x3 x5 : FVec Ideal S1x384 .f32)
    (x6 : FVec Ideal S128x2 .f32) (x7 : FVec Ideal S1x2 .f32) :
    k2_pay1 (F := Ideal) (k2_pay2 x0 x1 x2 x4 x3 x5) (k2_pay3 x6) x7
      = gruClassify x0 x1 (truncf .bf16 x2 bitsLt_bf16_f32) x3 (truncf .bf16 x4 bitsLt_bf16_f32) x5
          (truncf .bf16 x6 bitsLt_bf16_f32) x7 := by
  rw [classifier_block, cell_block']
  rfl

end Cert.KernelIdeal.Body

end
-- ==== Proof.Rows0.lean ====
/-
  The first region's output array after all fifty grid points: the dense layer of the WHOLE input matrix.

  Point t stages rows 2000·t … 2000·t + 1999 of the input matrix, the whole weight matrix and the whole bias row, and writes
  back rows 2000·t … 2000·t + 1999 of the output. A dense layer reads, for an entry of row r, row r of the input only; so what
  point t writes back is block t of the dense layer of the whole matrix, the fifty blocks tile the hundred thousand rows,
  and the array ends holding that one function of the arrays the region found.
-/
import proofs.«118627_j73658689126816_1_alg».proof.Proof.Gen.KernelIdeal.Frame
import proofs.«118627_j73658689126816_1_alg».proof.Proof.BodyLayers
import Idealize.ShloMosaic.Lib.Pipeline.Value

set_option maxRecDepth 16384

noncomputable section

namespace Cert.KernelIdeal.Rows0

open Idealize.ShloMosaic Idealize.ShloMosaic.TcCoe Idealize.ShloMosaic.ValueIdx Idealize.ShloMosaic.Affine
open Idealize.SL.Sem
open Idealize.ShloMosaic.Pipeline (Dat Cfg Window)
open Cert.KernelIdeal Cert.KernelIdeal.Gen Cert.GatedRows

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row-tiled windows sit at block (t, 0), the resident ones at (0, 0). -/
theorem index_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The dense layer of the arrays as the region finds them. -/
abbrev whole (c : Dev nD) : FVec Ideal S100000x128 .f32 :=
  affine (V c main_arg0) (truncf .bf16 (V c main_arg3) bitsLt_bf16_f32) (V c main_v0)

/-- Row p of the input block at point t is row 2000·t + p of the input matrix. -/
theorem in_row (c : Dev nD) (t : Fin cfg0.N) (p : Fin 2000) (r : Fin 100000) (hr : r.val = 2000 * t.val + p.val) (k : Fin 128) :
    iblk0 V c 0 t (ix2 p k) = V c main_arg0 (ix2 r k) := by
  show V c main_arg0 (((cfg0.win 0).blk t).view.emb (ix2 p k)) = _
  refine congrArg (V c main_arg0) (funext fun a => Fin.ext ?_)
  obtain ⟨e0, e1, -⟩ := index_facts t
  match a with
  | ⟨0, _⟩ => show win0_0.index t (0 : Fin 2) * 2000 + 1 * p.val = r.val; omega
  | ⟨1, _⟩ => show win0_0.index t (1 : Fin 2) * 128 + 1 * k.val = k.val; omega

/-- The weight block is the whole weight matrix. -/
theorem weights_whole (c : Dev nD) (t : Fin cfg0.N) : iblk0 V c 1 t = V c main_arg3 := by
  funext y
  show V c main_arg3 (((cfg0.win 1).blk t).view.emb y) = _
  refine congrArg (V c main_arg3) (funext fun a => Fin.ext ?_)
  obtain ⟨-, -, -, -, e4, e5, -⟩ := index_facts t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block is the whole bias row. -/
theorem bias_whole (c : Dev nD) (t : Fin cfg0.N) : iblk0 V c 2 t = V c main_v0 := by
  funext y
  show V c main_v0 (((cfg0.win 2).blk t).view.emb y) = _
  refine congrArg (V c main_v0) (funext fun a => Fin.ext ?_)
  obtain ⟨-, -, -, -, -, -, e6, e7⟩ := index_facts t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- WHAT POINT t WRITES BACK is block t of the dense layer of the whole arrays. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero zeros2]
  simp only [View.ld_unit_zero (S := S2000x128) zeros2, View.ld_unit_zero (S := S128x128) zeros2, View.ld_unit_zero (S := S1x128) zeros2]
  rw [Body.first_block, weights_whole, bias_whole]
  funext j
  obtain ⟨p, q, rfl⟩ : ∃ (p : Fin 2000) (q : Fin 128), j = ix2 p q := ⟨j 0, j 1, eq_ix2 j⟩
  have ht : t.val < 50 := lt_of_lt_of_eq t.isLt N_0
  have hp := p.isLt
  obtain ⟨-, -, e2, e3, -⟩ := index_facts t
  have hemb : ((cfg0.win 3).blk t).view.emb (ix2 p q) = ix2 (⟨2000 * t.val + p.val, by omega⟩ : Fin 100000) q := by
    funext a; apply Fin.ext
    match a with
    | ⟨0, _⟩ => show win0_3.index t (0 : Fin 2) * 2000 + 1 * p.val = 2000 * t.val + p.val; omega
    | ⟨1, _⟩ => show win0_3.index t (1 : Fin 2) * 128 + 1 * q.val = q.val; omega
  show affine (iblk0 V c 0 t) (truncf .bf16 (V c main_arg3) bitsLt_bf16_f32) (V c main_v0) (ix2 p q)
    = whole V c (((cfg0.win 3).blk t).view.emb (ix2 p q))
  rw [hemb]
  exact affine_row _ _ _ _ p _ (fun k => in_row V c t p _ rfl k) q

/-- An index of the output array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- The fifty blocks tile the array: row r is in the block of point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; omega⟩
  refine ⟨t, flush0_3 t, ?_⟩
  rw [mem_blk]
  obtain ⟨-, -, e2, e3, -⟩ := index_facts t
  have e2' : win0_3.index t (0 : Fin 2) = (i 0).val / 2000 := e2
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY after the region: the dense layer of the arrays the region found. -/
theorem final (c : Dev nD) : (dat0 V c).arrAt 3 cfg0.N = whole V c :=
  (dat0 V c).arrAt_eq_of_cover 3 (whole V c) (fun t _ => flushed_eq V c t) (cover)

end Cert.KernelIdeal.Rows0

end
-- ==== Proof.Rows1.lean ====
/-
  The second region's output array after all fifty grid points: the recurrent cell and the dense layer after it, of the WHOLE
  message and state matrices.

  Point t stages rows 2000·t … 2000·t + 1999 of the message matrix and of the state matrix, and the whole of both gate
  weight matrices, both gate bias rows, the dense layer's weights and its bias row; it writes back the same rows of the output.
  The layer reads, for an entry of row r, row r of the two row-tiled matrices only; so what point t writes back is block t of
  the layer of the whole matrices, the fifty blocks tile the hundred thousand rows, and the array ends holding that function.
-/
import proofs.«118627_j73658689126816_1_alg».proof.Proof.Gen.KernelIdeal.Frame
import proofs.«118627_j73658689126816_1_alg».proof.Proof.BodyLayers
import Idealize.ShloMosaic.Lib.Pipeline.Value

set_option maxRecDepth 16384

noncomputable section

namespace Cert.KernelIdeal.Rows1

open Idealize.ShloMosaic Idealize.ShloMosaic.TcCoe Idealize.ShloMosaic.ValueIdx Idealize.ShloMosaic.Affine
open Idealize.SL.Sem
open Idealize.ShloMosaic.Pipeline (Dat Cfg Window)
open Cert.KernelIdeal Cert.KernelIdeal.Gen Cert.GatedRows

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row-tiled windows sit at block (t, 0), the resident ones at (0, 0). -/
theorem index_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_8.index t (0 : Fin 2) = t.val
    ∧ win1_8.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- The cell and the dense layer after it, of the arrays as the region finds them. -/
abbrev whole (c : Dev nD) : FVec Ideal S100000x128 .f32 :=
  gruDense (V c main_v18) (V c main_v1) (truncf .bf16 (V c main_v19) bitsLt_bf16_f32) (V c main_v21)
    (truncf .bf16 (V c main_v20) bitsLt_bf16_f32) (V c main_v22) (truncf .bf16 (V c main_arg9) bitsLt_bf16_f32) (V c main_v23)

/-- Row p of window 0's block at point t is row 2000·t + p of its array. -/
theorem in_row0 (c : Dev nD) (t : Fin cfg1.N) (p : Fin 2000) (r : Fin 100000) (hr : r.val = 2000 * t.val + p.val) (k : Fin 128) :
    iblk1 V c 0 t (ix2 p k) = V c main_v18 (ix2 r k) := by
  show V c main_v18 (((cfg1.win 0).blk t).view.emb (ix2 p k)) = _
  refine congrArg (V c main_v18) (funext fun a => Fin.ext ?_)
  have e := index_facts t
  match a with
  | ⟨0, _⟩ => show win1_0.index t (0 : Fin 2) * 2000 + 1 * p.val = r.val; omega
  | ⟨1, _⟩ => show win1_0.index t (1 : Fin 2) * 128 + 1 * k.val = k.val; omega

/-- Row p of window 1's block at point t is row 2000·t + p of its array. -/
theorem in_row1 (c : Dev nD) (t : Fin cfg1.N) (p : Fin 2000) (r : Fin 100000) (hr : r.val = 2000 * t.val + p.val) (k : Fin 128) :
    iblk1 V c 1 t (ix2 p k) = V c main_v1 (ix2 r k) := by
  show V c main_v1 (((cfg1.win 1).blk t).view.emb (ix2 p k)) = _
  refine congrArg (V c main_v1) (funext fun a => Fin.ext ?_)
  have e := index_facts t
  match a with
  | ⟨0, _⟩ => show win1_1.index t (0 : Fin 2) * 2000 + 1 * p.val = r.val; omega
  | ⟨1, _⟩ => show win1_1.index t (1 : Fin 2) * 128 + 1 * k.val = k.val; omega

/-- Window 2's block is its whole array at every point. -/
theorem resident2 (c : Dev nD) (t : Fin cfg1.N) : iblk1 V c 2 t = V c main_v19 := by
  funext y
  show V c main_v19 (((cfg1.win 2).blk t).view.emb y) = _
  refine congrArg (V c main_v19) (funext fun a => Fin.ext ?_)
  have e := index_facts t
  match a with
  | ⟨0, _⟩ => show win1_2.index t (0 : Fin 2) * 128 + 1 * (y 0).val = (y 0).val; omega
  | ⟨1, _⟩ => show win1_2.index t (1 : Fin 2) * 384 + 1 * (y 1).val = (y 1).val; omega

/-- Window 3's block is its whole array at every point. -/
theorem resident3 (c : Dev nD) (t : Fin cfg1.N) : iblk1 V c 3 t = V c main_v21 := by
  funext y
  show V c main_v21 (((cfg1.win 3).blk t).view.emb y) = _
  refine congrArg (V c main_v21) (funext fun a => Fin.ext ?_)
  have e := index_facts t
  match a with
  | ⟨0, _⟩ => show win1_3.index t (0 : Fin 2) * 1 + 1 * (y 0).val = (y 0).val; omega
  | ⟨1, _⟩ => show win1_3.index t (1 : Fin 2) * 384 + 1 * (y 1).val = (y 1).val; omega

/-- Window 4's block is its whole array at every point. -/
theorem resident4 (c : Dev nD) (t : Fin cfg1.N) : iblk1 V c 4 t = V c main_v20 := by
  funext y
  show V c main_v20 (((cfg1.win 4).blk t).view.emb y) = _
  refine congrArg (V c main_v20) (funext fun a => Fin.ext ?_)
  have e := index_facts t
  match a with
  | ⟨0, _⟩ => show win1_4.index t (0 : Fin 2) * 128 + 1 * (y 0).val = (y 0).val; omega
  | ⟨1, _⟩ => show win1_4.index t (1 : Fin 2) * 384 + 1 * (y 1).val = (y 1).val; omega

/-- Window 5's block is its whole array at every point. -/
theorem resident5 (c : Dev nD) (t : Fin cfg1.N) : iblk1 V c 5 t = V c main_v22 := by
  funext y
  show V c main_v22 (((cfg1.win 5).blk t).view.emb y) = _
  refine congrArg (V c main_v22) (funext fun a => Fin.ext ?_)
  have e := index_facts t
  match a with
  | ⟨0, _⟩ => show win1_5.index t (0 : Fin 2) * 1 + 1 * (y 0).val = (y 0).val; omega
  | ⟨1, _⟩ => show win1_5.index t (1 : Fin 2) * 384 + 1 * (y 1).val = (y 1).val; omega

/-- Window 6's block is its whole array at every point. -/
theorem resident6 (c : Dev nD) (t : Fin cfg1.N) : iblk1 V c 6 t = V c main_arg9 := by
  funext y
  show V c main_arg9 (((cfg1.win 6).blk t).view.emb y) = _
  refine congrArg (V c main_arg9) (funext fun a => Fin.ext ?_)
  have e := index_facts t
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- Window 7's block is its whole array at every point. -/
theorem resident7 (c : Dev nD) (t : Fin cfg1.N) : iblk1 V c 7 t = V c main_v23 := by
  funext y
  show V c main_v23 (((cfg1.win 7).blk t).view.emb y) = _
  refine congrArg (V c main_v23) (funext fun a => Fin.ext ?_)
  have e := index_facts t
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- WHAT POINT t WRITES BACK is block t of the layer of the whole arrays. -/
theorem flushed_eq (c : Dev nD) (t : Fin cfg1.N) :
    (dat1 V c).flushed 8 t = ((cfg1.win 8).blk t).view.read (Elt Ideal) (whole V c) := by
  show (cfg1.win 8).cut (grid1.coords t) ((dat1 V c).after 8 t) = _
  rw [after1_8]
  unfold out1_8
  rw [View.canon_unit_zero zeros2]
  simp only [View.ld_unit_zero (S := S2000x128) zeros2, View.ld_unit_zero (S := S128x384) zeros2, View.ld_unit_zero (S := S1x384) zeros2, View.ld_unit_zero (S := S128x128) zeros2, View.ld_unit_zero (S := S1x128) zeros2]
  rw [Body.second_block, resident2, resident3, resident4, resident5, resident6, resident7]
  funext j
  obtain ⟨p, q, rfl⟩ : ∃ (p : Fin 2000) (q : Fin 128), j = ix2 p q := ⟨j 0, j 1, eq_ix2 j⟩
  have ht : t.val < 50 := lt_of_lt_of_eq t.isLt N_1
  have hp := p.isLt
  have e := index_facts t
  have hemb : ((cfg1.win 8).blk t).view.emb (ix2 p q) = ix2 (⟨2000 * t.val + p.val, by omega⟩ : Fin 100000) q := by
    funext a; apply Fin.ext
    match a with
    | ⟨0, _⟩ => show win1_8.index t (0 : Fin 2) * 2000 + 1 * p.val = 2000 * t.val + p.val; omega
    | ⟨1, _⟩ => show win1_8.index t (1 : Fin 2) * 128 + 1 * q.val = q.val; omega
  show gruDense (iblk1 V c 0 t) (iblk1 V c 1 t) (truncf .bf16 (V c main_v19) bitsLt_bf16_f32) (V c main_v21)
      (truncf .bf16 (V c main_v20) bitsLt_bf16_f32) (V c main_v22) (truncf .bf16 (V c main_arg9) bitsLt_bf16_f32) (V c main_v23) (ix2 p q)
    = whole V c (((cfg1.win 8).blk t).view.emb (ix2 p q))
  rw [hemb]
  exact gruDense_row _ _ _ _ _ _ _ _ _ _ p _ (fun k => in_row0 V c t p _ rfl k) (fun k => in_row1 V c t p _ rfl k) q

/-- An index of the output array is in point t's block iff each coordinate is in the block's range on its axis. -/
theorem mem_blk (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v24).slice (win1_8.rect t)).set ↔ _
  rw [View.set_slice_whole, Rect.mem_set_unit]
  exact Iff.rfl

/-- The fifty blocks tile the array: row r is in the block of point r / 2000. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hN : grid1.N = 50 := N_1
  let t : Fin cfg1.N := ⟨(i 0).val / 2000, by show (i 0).val / 2000 < grid1.N; omega⟩
  refine ⟨t, flush1_8 t, ?_⟩
  rw [mem_blk]
  have e := index_facts t
  have e' : win1_8.index t (0 : Fin 2) = (i 0).val / 2000 := e.2.2.2.2.1
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- THE ARRAY after the region: the layer of the arrays the region found. -/
theorem final (c : Dev nD) : (dat1 V c).arrAt 8 cfg1.N = whole V c :=
  (dat1 V c).arrAt_eq_of_cover 8 (whole V c) (fun t _ => flushed_eq V c t) (cover)

end Cert.KernelIdeal.Rows1

end
-- ==== Proof.Rows2.lean ====
/-
  The third region's output array after all fifty grid points: the recurrent cell, the dense layer onto two classes and the
  log-softmax of each row, of the WHOLE message and state matrices.

  Point t stages rows 2000·t … 2000·t + 1999 of the message matrix and of the state matrix, and the whole of both gate
  weight matrices, both gate bias rows, the classifier's weights and its bias row; it writes back the same rows of the output.
  The layer reads, for an entry of row r, row r of the two row-tiled matrices only (the row maximum and the normaliser are
  taken along that row); so what point t writes back is block t of the layer of the whole matrices, the fifty blocks tile the
  hundred thousand rows, and the array ends holding that function.
-/
import proofs.«118627_j73658689126816_1_alg».proof.Proof.Gen.KernelIdeal.Frame
import proofs.«118627_j73658689126816_1_alg».proof.Proof.BodyLayers
import Idealize.ShloMosaic.Lib.Pipeline.Value

set_option maxRecDepth 16384

noncomputable section

namespace Cert.KernelIdeal.Rows2

open Idealize.ShloMosaic Idealize.ShloMosaic.TcCoe Idealize.ShloMosaic.ValueIdx Idealize.ShloMosaic.Affine
open Idealize.SL.Sem
open Idealize.ShloMosaic.Pipeline (Dat Cfg Window)
open Cert.KernelIdeal Cert.KernelIdeal.Gen Cert.GatedRows

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row-tiled windows sit at block (t, 0), the resident ones at (0, 0). -/
theorem index_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_8.index t (0 : Fin 2) = t.val
    ∧ win2_8.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-- The cell, the classifier and the log-softmax, of the arrays as the region finds them. -/
abbrev whole (c : Dev nD) : FVec Ideal S100000x2 .f32 :=
  gruClassify (V c main_v41) (V c main_v1) (truncf .bf16 (V c main_v19) bitsLt_bf16_f32) (V c main_v42)
    (truncf .bf16 (V c main_v20) bitsLt_bf16_f32) (V c main_v43) (truncf .bf16 (V c main_arg11) bitsLt_bf16_f32) (V c main_v44)

/-- Row p of window 0's block at point t is row 2000·t + p of its array. -/
theorem in_row0 (c : Dev nD) (t : Fin cfg2.N) (p : Fin 2000) (r : Fin 100000) (hr : r.val = 2000 * t.val + p.val) (k : Fin 128) :
    iblk2 V c 0 t (ix2 p k) = V c main_v41 (ix2 r k) := by
  show V c main_v41 (((cfg2.win 0).blk t).view.emb (ix2 p k)) = _
  refine congrArg (V c main_v41) (funext fun a => Fin.ext ?_)
  have e := index_facts t
  match a with
  | ⟨0, _⟩ => show win2_0.index t (0 : Fin 2) * 2000 + 1 * p.val = r.val; omega
  | ⟨1, _⟩ => show win2_0.index t (1 : Fin 2) * 128 + 1 * k.val = k.val; omega

/-- Row p of window 1's block at point t is row 2000·t + p of its array. -/
theorem in_row1 (c : Dev nD) (t : Fin cfg2.N) (p : Fin 2000) (r : Fin 100000) (hr : r.val = 2000 * t.val + p.val) (k : Fin 128) :
    iblk2 V c 1 t (ix2 p k) = V c main_v1 (ix2 r k) := by
  show V c main_v1 (((cfg2.win 1).blk t).view.emb (ix2 p k)) = _
  refine congrArg (V c main_v1) (funext fun a => Fin.ext ?_)
  have e := index_facts t
  match a with
  | ⟨0, _⟩ => show win2_1.index t (0 : Fin 2) * 2000 + 1 * p.val = r.val; omega
  | ⟨1, _⟩ => show win2_1.index t (1 : Fin 2) * 128 + 1 * k.val = k.val; omega

/-- Window 2's block is its whole array at every point. -/
theorem resident2 (c : Dev nD) (t : Fin cfg2.N) : iblk2 V c 2 t = V c main_v19 := by
  funext y
  show V c main_v19 (((cfg2.win 2).blk t).view.emb y) = _
  refine congrArg (V c main_v19) (funext fun a => Fin.ext ?_)
  have e := index_facts t
  match a with
  | ⟨0, _⟩ => show win2_2.index t (0 : Fin 2) * 128 + 1 * (y 0).val = (y 0).val; omega
  | ⟨1, _⟩ => show win2_2.index t (1 : Fin 2) * 384 + 1 * (y 1).val = (y 1).val; omega

/-- Window 3's block is its whole array at every point. -/
theorem resident3 (c : Dev nD) (t : Fin cfg2.N) : iblk2 V c 3 t = V c main_v42 := by
  funext y
  show V c main_v42 (((cfg2.win 3).blk t).view.emb y) = _
  refine congrArg (V c main_v42) (funext fun a => Fin.ext ?_)
  have e := index_facts t
  match a with
  | ⟨0, _⟩ => show win2_3.index t (0 : Fin 2) * 1 + 1 * (y 0).val = (y 0).val; omega
  | ⟨1, _⟩ => show win2_3.index t (1 : Fin 2) * 384 + 1 * (y 1).val = (y 1).val; omega

/-- Window 4's block is its whole array at every point. -/
theorem resident4 (c : Dev nD) (t : Fin cfg2.N) : iblk2 V c 4 t = V c main_v20 := by
  funext y
  show V c main_v20 (((cfg2.win 4).blk t).view.emb y) = _
  refine congrArg (V c main_v20) (funext fun a => Fin.ext ?_)
  have e := index_facts t
  match a with
  | ⟨0, _⟩ => show win2_4.index t (0 : Fin 2) * 128 + 1 * (y 0).val = (y 0).val; omega
  | ⟨1, _⟩ => show win2_4.index t (1 : Fin 2) * 384 + 1 * (y 1).val = (y 1).val; omega

/-- Window 5's block is its whole array at every point. -/
theorem resident5 (c : Dev nD) (t : Fin cfg2.N) : iblk2 V c 5 t = V c main_v43 := by
  funext y
  show V c main_v43 (((cfg2.win 5).blk t).view.emb y) = _
  refine congrArg (V c main_v43) (funext fun a => Fin.ext ?_)
  have e := index_facts t
  match a with
  | ⟨0, _⟩ => show win2_5.index t (0 : Fin 2) * 1 + 1 * (y 0).val = (y 0).val; omega
  | ⟨1, _⟩ => show win2_5.index t (1 : Fin 2) * 384 + 1 * (y 1).val = (y 1).val; omega

/-- Window 6's block is its whole array at every point. -/
theorem resident6 (c : Dev nD) (t : Fin cfg2.N) : iblk2 V c 6 t = V c main_arg11 := by
  funext y
  show V c main_arg11 (((cfg2.win 6).blk t).view.emb y) = _
  refine congrArg (V c main_arg11) (funext fun a => Fin.ext ?_)
  have e := index_facts t
  match a with
  | ⟨0, _⟩ => show win2_6.index t (0 : Fin 2) * 128 + 1 * (y 0).val = (y 0).val; omega
  | ⟨1, _⟩ => show win2_6.index t (1 : Fin 2) * 2 + 1 * (y 1).val = (y 1).val; omega

/-- Window 7's block is its whole array at every point. -/
theorem resident7 (c : Dev nD) (t : Fin cfg2.N) : iblk2 V c 7 t = V c main_v44 := by
  funext y
  show V c main_v44 (((cfg2.win 7).blk t).view.emb y) = _
  refine congrArg (V c main_v44) (funext fun a => Fin.ext ?_)
  have e := index_facts t
  match a with
  | ⟨0, _⟩ => show win2_7.index t (0 : Fin 2) * 1 + 1 * (y 0).val = (y 0).val; omega
  | ⟨1, _⟩ => show win2_7.index t (1 : Fin 2) * 2 + 1 * (y 1).val = (y 1).val; omega

/-- WHAT POINT t WRITES BACK is block t of the layer of the whole arrays. -/
theorem flushed_eq (c : Dev nD) (t : Fin cfg2.N) :
    (dat2 V c).flushed 8 t = ((cfg2.win 8).blk t).view.read (Elt Ideal) (whole V c) := by
  show (cfg2.win 8).cut (grid2.coords t) ((dat2 V c).after 8 t) = _
  rw [after2_8]
  unfold out2_8
  rw [View.canon_unit_zero zeros2]
  simp only [View.ld_unit_zero (S := S2000x128) zeros2, View.ld_unit_zero (S := S128x384) zeros2, View.ld_unit_zero (S := S1x384) zeros2, View.ld_unit_zero (S := S128x2) zeros2, View.ld_unit_zero (S := S1x2) zeros2, View.ld_unit_zero (S := S2000x2) zeros2]
  rw [Body.third_block, resident2, resident3, resident4, resident5, resident6, resident7]
  funext j
  obtain ⟨p, q, rfl⟩ : ∃ (p : Fin 2000) (q : Fin 2), j = ix2 p q := ⟨j 0, j 1, eq_ix2 j⟩
  have ht : t.val < 50 := lt_of_lt_of_eq t.isLt N_2
  have hp := p.isLt
  have e := index_facts t
  have hemb : ((cfg2.win 8).blk t).view.emb (ix2 p q) = ix2 (⟨2000 * t.val + p.val, by omega⟩ : Fin 100000) q := by
    funext a; apply Fin.ext
    match a with
    | ⟨0, _⟩ => show win2_8.index t (0 : Fin 2) * 2000 + 1 * p.val = 2000 * t.val + p.val; omega
    | ⟨1, _⟩ => show win2_8.index t (1 : Fin 2) * 2 + 1 * q.val = q.val; omega
  show gruClassify (iblk2 V c 0 t) (iblk2 V c 1 t) (truncf .bf16 (V c main_v19) bitsLt_bf16_f32) (V c main_v42)
      (truncf .bf16 (V c main_v20) bitsLt_bf16_f32) (V c main_v43) (truncf .bf16 (V c main_arg11) bitsLt_bf16_f32) (V c main_v44) (ix2 p q)
    = whole V c (((cfg2.win 8).blk t).view.emb (ix2 p q))
  rw [hemb]
  exact gruClassify_row _ _ _ _ _ _ _ _ _ _ p _ (fun k => in_row0 V c t p _ rfl k) (fun k => in_row1 V c t p _ rfl k) q

/-- An index of the output array is in point t's block iff each coordinate is in the block's range on its axis. -/
theorem mem_blk (t : Fin cfg2.N) (i : S100000x2.Idx) :
    i ∈ ((cfg2.win 8).blk t).view.set ↔ ∀ a : Fin 2, win2_8.index t a * S2000x2.size a ≤ (i a).val ∧ (i a).val < win2_8.index t a * S2000x2.size a + S2000x2.size a := by
  show i ∈ ((View.whole main_v45).slice (win2_8.rect t)).set ↔ _
  rw [View.set_slice_whole, Rect.mem_set_unit]
  exact Iff.rfl

/-- The fifty blocks tile the array: row r is in the block of point r / 2000. -/
theorem cover (i : S100000x2.Idx) : ∃ t : Fin cfg2.N, (cfg2.win 8).flush t = true ∧ i ∈ ((cfg2.win 8).blk t).view.set := by
  have hi0 : (i 0).val < 100000 := (i 0).isLt
  have hi1 : (i 1).val < 2 := (i 1).isLt
  have hN : grid2.N = 50 := N_2
  let t : Fin cfg2.N := ⟨(i 0).val / 2000, by show (i 0).val / 2000 < grid2.N; omega⟩
  refine ⟨t, flush2_8 t, ?_⟩
  rw [mem_blk]
  have e := index_facts t
  have e' : win2_8.index t (0 : Fin 2) = (i 0).val / 2000 := e.2.2.2.2.1
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 2 ≤ (i 1).val ∧ (i 1).val < win2_8.index t (1 : Fin 2) * 2 + 2; omega

/-- THE ARRAY after the region: the layer of the arrays the region found. -/
theorem final (c : Dev nD) : (dat2 V c).arrAt 8 cfg2.N = whole V c :=
  (dat2 V c).arrAt_eq_of_cover 8 (whole V c) (fun t _ => flushed_eq V c t) (cover)

end Cert.KernelIdeal.Rows2

end
-- ==== Proof.KernelRun.lean ====
/-
  The idealized kernel program's result array as ONE function of its argument arrays.

  The program is three row-tiled regions with host operations between them. Region 0 leaves the dense layer x0 of the node
  features. The host then passes messages: it gathers the rows of a matrix at the edges' source nodes, scales each by its
  edge weight and scatter-adds them at the target nodes (conv: one chain of host operations, the same before regions 1 and 2, kept
  closed here). Region 1 leaves x2 = dense (cell (conv x0) x0); region 2 leaves the log-softmax of dense (cell (conv x2) x0). The
  gate weights reach the regions transposed by the host, the bias vectors recast to one row.
  Each region's array is read off the pipeline's write-backs (Rows0, Rows1, Rows2) at the contents the region is entered with,
  and those contents are the host operations' results of what the previous region left: a walk through the program's
  segments from the launch memory.
-/
import proofs.«118627_j73658689126816_1_alg».proof.Proof.Gen.KernelIdeal.Frame
import proofs.«118627_j73658689126816_1_alg».proof.Proof.Rows0
import proofs.«118627_j73658689126816_1_alg».proof.Proof.Rows1
import proofs.«118627_j73658689126816_1_alg».proof.Proof.Rows2
import Idealize.ShloMosaic.Lib.StableHlo.Run

set_option maxRecDepth 16384

noncomputable section

namespace Cert.KernelIdeal.Net

open Idealize.ShloMosaic Idealize.ShloMosaic.TcCoe Idealize.ShloMosaic.Tactic Idealize.ShloMosaic.ValueIdx Idealize.ShloMosaic.Affine
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.GatedRows

local notation "𝕄" => MT nD τ sig Unit (Elt Ideal) ℕ (UR sig nD τ) ℕ

/-! ## Message passing, as the host spells it -/

/-- The edges' source nodes, a negative index wrapped once by the number of nodes, as a column. -/
def srcColumn (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- Gather the source rows, scale by the edge weights, add up at the target nodes. -/
def conv (X : (⟨S100000x128, .f32⟩ : BufTy).Contents (Elt Ideal)) (ei : (⟨S2x1600000, .i32⟩ : BufTy).Contents (Elt Ideal))
    (ew : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (mulf (Host.gather gather_S100000x128_S1600000x1_S1600000x128_1_0_n_n_0_1_1128 X (srcColumn ei))
      (broadcastInDim S1600000x128 ![0, 1] bcast_S1600000x1_S1600000x128_0_1 (broadcastInDim S1600000x1 ![0] bcast_S1600000_S1600000x1_0 ew)))

variable (m : (ℓ : Loc nD τ sig) → Buf (Elt Ideal) ℓ) (ρ : Dev nD → PrngReg)

/-! ## The three stages as functions of the arguments -/

/-- The first dense layer of the node features. -/
def x0 (c : Dev nD) : (⟨S100000x128, .f32⟩ : BufTy).Contents (Elt Ideal) :=
  affine (m ((c : Thread nD τ).loc main_arg0)) (truncf .bf16 (m ((c : Thread nD τ).loc main_arg3)) bitsLt_bf16_f32) (shapeCast S1x128 (m ((c : Thread nD τ).loc main_arg4)) shapeCasts_S128_S1x128)

abbrev wih (c : Dev nD) : FVec Ideal S128x384 .bf16 :=
  truncf .bf16 (transpose S128x384 [1, 0] (m ((c : Thread nD τ).loc main_arg5)) transposes_S384x128_S128x384_1_0) bitsLt_bf16_f32
abbrev whh (c : Dev nD) : FVec Ideal S128x384 .bf16 :=
  truncf .bf16 (transpose S128x384 [1, 0] (m ((c : Thread nD τ).loc main_arg7)) transposes_S384x128_S128x384_1_0) bitsLt_bf16_f32
abbrev bih (c : Dev nD) : FVec Ideal S1x384 .f32 := shapeCast S1x384 (m ((c : Thread nD τ).loc main_arg6)) shapeCasts_S384_S1x384
abbrev bhh (c : Dev nD) : FVec Ideal S1x384 .f32 := shapeCast S1x384 (m ((c : Thread nD τ).loc main_arg8)) shapeCasts_S384_S1x384

/-- After one round of message passing: the cell on the messages and the state x0, then a dense layer. -/
def x2 (c : Dev nD) : (⟨S100000x128, .f32⟩ : BufTy).Contents (Elt Ideal) :=
  gruDense (conv (x0 m c) (m ((c : Thread nD τ).loc main_arg1)) (m ((c : Thread nD τ).loc main_arg2))) (x0 m c) (wih m c) (bih m c) (whh m c) (bhh m c)
    (truncf .bf16 (m ((c : Thread nD τ).loc main_arg9)) bitsLt_bf16_f32) (shapeCast S1x128 (m ((c : Thread nD τ).loc main_arg10)) shapeCasts_S128_S1x128)

/-- After the second round: the cell, the classifier and the log-softmax. -/
def result (c : Dev nD) : (⟨S100000x2, .f32⟩ : BufTy).Contents (Elt Ideal) :=
  gruClassify (conv (x2 m c) (m ((c : Thread nD τ).loc main_arg1)) (m ((c : Thread nD τ).loc main_arg2))) (x0 m c) (wih m c) (bih m c) (whh m c) (bhh m c)
    (truncf .bf16 (m ((c : Thread nD τ).loc main_arg11)) bitsLt_bf16_f32) (shapeCast S1x2 (m ((c : Thread nD τ).loc main_arg12)) shapeCasts_S2_S1x2)

/-! ## Region 0: entered after one reshape -/

theorem V1_bias (c : Dev nD) : V1 m ρ c main_v0 = shapeCast S1x128 (m ((c : Thread nD τ).loc main_arg4)) shapeCasts_S128_S1x128 := by
  show StableHlo.after hostOps0 (W0 m ρ c) (Proc.devRef .tc main_v0) = _
  after_results <;> rfl
theorem V1_arg0 (c : Dev nD) : V1 m ρ c main_arg0 = (m ((c : Thread nD τ).loc main_arg0)) := by
  show StableHlo.after hostOps0 (W0 m ρ c) (Proc.devRef .tc main_arg0) = _
  after_results <;> rfl
theorem V1_arg3 (c : Dev nD) : V1 m ρ c main_arg3 = (m ((c : Thread nD τ).loc main_arg3)) := by
  show StableHlo.after hostOps0 (W0 m ρ c) (Proc.devRef .tc main_arg3) = _
  after_results <;> rfl

/-- Region 0 leaves x0. -/
theorem W2_x0 (c : Dev nD) : W2 m ρ c (Proc.devRef .tc main_v1) = x0 m c := by
  refine (W2_arr m ρ c 3).trans ((Rows0.final (V1 m ρ) c).trans ?_)
  show affine (V1 m ρ c main_arg0) (truncf .bf16 (V1 m ρ c main_arg3) bitsLt_bf16_f32) (V1 m ρ c main_v0) = _
  rw [V1_arg0, V1_arg3, V1_bias]; rfl

/-- An argument region 0 does not stage is as launched when it is left. -/
theorem W2_arg1 (c : Dev nD) : W2 m ρ c (Proc.devRef .tc main_arg1) = (m ((c : Thread nD τ).loc main_arg1)) := by
  refine (W2_of_ne m ρ c main_arg1 (by decide)).trans ?_
  show StableHlo.after hostOps0 (W0 m ρ c) (Proc.devRef .tc main_arg1) = _
  after_results <;> rfl
theorem W2_arg2 (c : Dev nD) : W2 m ρ c (Proc.devRef .tc main_arg2) = (m ((c : Thread nD τ).loc main_arg2)) := by
  refine (W2_of_ne m ρ c main_arg2 (by decide)).trans ?_
  show StableHlo.after hostOps0 (W0 m ρ c) (Proc.devRef .tc main_arg2) = _
  after_results <;> rfl
theorem W2_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results <;> rfl
theorem W2_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results <;> rfl
theorem W2_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results <;> rfl
theorem W2_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results <;> rfl
theorem W2_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results <;> rfl
theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results <;> rfl
theorem W2_arg11 (c : Dev nD) : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results <;> rfl
theorem W2_arg12 (c : Dev nD) : W2 m ρ c (Proc.devRef .tc main_arg12) = (m ((c : Thread nD τ).loc main_arg12)) := by
  refine (W2_of_ne m ρ c main_arg12 (by decide)).trans ?_
  show StableHlo.after hostOps0 (W0 m ρ c) (Proc.devRef .tc main_arg12) = _
  after_results <;> rfl

/-! ## Region 1: entered after the first message passing -/

theorem V3_msg (c : Dev nD) : V3 m ρ c main_v18 = conv (x0 m c) (m ((c : Thread nD τ).loc main_arg1)) (m ((c : Thread nD τ).loc main_arg2)) := by
  show StableHlo.after hostOps1 (W2 m ρ c) (Proc.devRef .tc main_v18) = _
  after_results_simp
  rw [W2_x0, W2_arg1, W2_arg2]; rfl
theorem V3_state (c : Dev nD) : V3 m ρ c main_v1 = x0 m c := by
  show StableHlo.after hostOps1 (W2 m ρ c) (Proc.devRef .tc main_v1) = _
  after_results_simp
  exact W2_x0 m ρ c
theorem V3_wih (c : Dev nD) : V3 m ρ c main_v19 = transpose S128x384 [1, 0] (m ((c : Thread nD τ).loc main_arg5)) transposes_S384x128_S128x384_1_0 := by
  show StableHlo.after hostOps1 (W2 m ρ c) (Proc.devRef .tc main_v19) = _
  after_results_simp
  rw [W2_arg5]
theorem V3_whh (c : Dev nD) : V3 m ρ c main_v20 = transpose S128x384 [1, 0] (m ((c : Thread nD τ).loc main_arg7)) transposes_S384x128_S128x384_1_0 := by
  show StableHlo.after hostOps1 (W2 m ρ c) (Proc.devRef .tc main_v20) = _
  after_results_simp
  rw [W2_arg7]
theorem V3_bih (c : Dev nD) : V3 m ρ c main_v21 = shapeCast S1x384 (m ((c : Thread nD τ).loc main_arg6)) shapeCasts_S384_S1x384 := by
  show StableHlo.after hostOps1 (W2 m ρ c) (Proc.devRef .tc main_v21) = _
  after_results_simp
  rw [W2_arg6]; rfl
theorem V3_bhh (c : Dev nD) : V3 m ρ c main_v22 = shapeCast S1x384 (m ((c : Thread nD τ).loc main_arg8)) shapeCasts_S384_S1x384 := by
  show StableHlo.after hostOps1 (W2 m ρ c) (Proc.devRef .tc main_v22) = _
  after_results_simp
  rw [W2_arg8]; rfl
theorem V3_wlin (c : Dev nD) : V3 m ρ c main_arg9 = (m ((c : Thread nD τ).loc main_arg9)) := by
  show StableHlo.after hostOps1 (W2 m ρ c) (Proc.devRef .tc main_arg9) = _
  after_results_simp
  exact W2_arg9 m ρ c
theorem V3_blin (c : Dev nD) : V3 m ρ c main_v23 = shapeCast S1x128 (m ((c : Thread nD τ).loc main_arg10)) shapeCasts_S128_S1x128 := by
  show StableHlo.after hostOps1 (W2 m ρ c) (Proc.devRef .tc main_v23) = _
  after_results_simp
  rw [W2_arg10]; rfl

/-- Region 1 leaves x2. -/
theorem W4_x2 (c : Dev nD) : W4 m ρ c (Proc.devRef .tc main_v24) = x2 m c := by
  refine (W4_arr m ρ c 8).trans ((Rows1.final (V3 m ρ) c).trans ?_)
  show gruDense (V3 m ρ c main_v18) (V3 m ρ c main_v1) (truncf .bf16 (V3 m ρ c main_v19) bitsLt_bf16_f32) (V3 m ρ c main_v21)
    (truncf .bf16 (V3 m ρ c main_v20) bitsLt_bf16_f32) (V3 m ρ c main_v22) (truncf .bf16 (V3 m ρ c main_arg9) bitsLt_bf16_f32) (V3 m ρ c main_v23) = _
  rw [V3_msg, V3_state, V3_wih, V3_bih, V3_whh, V3_bhh, V3_wlin, V3_blin]; rfl

/-- What region 1 only reads it leaves as it found it. -/
theorem W4_state (c : Dev nD) : W4 m ρ c (Proc.devRef .tc main_v1) = x0 m c :=
  ((W4_arr m ρ c 1).trans (((dat1 (V3 m ρ) c).arrAt_in 1 rfl _).trans (A_eq1 (V3 m ρ) c 1))).trans (V3_state m ρ c)
theorem W4_wih (c : Dev nD) : W4 m ρ c (Proc.devRef .tc main_v19) = transpose S128x384 [1, 0] (m ((c : Thread nD τ).loc main_arg5)) transposes_S384x128_S128x384_1_0 :=
  ((W4_arr m ρ c 2).trans (((dat1 (V3 m ρ) c).arrAt_in 2 rfl _).trans (A_eq1 (V3 m ρ) c 2))).trans (V3_wih m ρ c)
theorem W4_whh (c : Dev nD) : W4 m ρ c (Proc.devRef .tc main_v20) = transpose S128x384 [1, 0] (m ((c : Thread nD τ).loc main_arg7)) transposes_S384x128_S128x384_1_0 :=
  ((W4_arr m ρ c 4).trans (((dat1 (V3 m ρ) c).arrAt_in 4 rfl _).trans (A_eq1 (V3 m ρ) c 4))).trans (V3_whh m ρ c)
theorem W4_arg1 (c : Dev nD) : W4 m ρ c (Proc.devRef .tc main_arg1) = (m ((c : Thread nD τ).loc main_arg1)) := by
  refine (W4_of_ne m ρ c main_arg1 (by decide)).trans ?_
  show StableHlo.after hostOps1 (W2 m ρ c) (Proc.devRef .tc main_arg1) = _
  after_results_simp
  exact W2_arg1 m ρ c
theorem W4_arg2 (c : Dev nD) : W4 m ρ c (Proc.devRef .tc main_arg2) = (m ((c : Thread nD τ).loc main_arg2)) := by
  refine (W4_of_ne m ρ c main_arg2 (by decide)).trans ?_
  show StableHlo.after hostOps1 (W2 m ρ c) (Proc.devRef .tc main_arg2) = _
  after_results_simp
  exact W2_arg2 m ρ c
theorem W4_arg6 (c : Dev nD) : W4 m ρ c (Proc.devRef .tc main_arg6) = (m ((c : Thread nD τ).loc main_arg6)) := by
  refine (W4_of_ne m ρ c main_arg6 (by decide)).trans ?_
  show StableHlo.after hostOps1 (W2 m ρ c) (Proc.devRef .tc main_arg6) = _
  after_results_simp
  exact W2_arg6 m ρ c
theorem W4_arg8 (c : Dev nD) : W4 m ρ c (Proc.devRef .tc main_arg8) = (m ((c : Thread nD τ).loc main_arg8)) := by
  refine (W4_of_ne m ρ c main_arg8 (by decide)).trans ?_
  show StableHlo.after hostOps1 (W2 m ρ c) (Proc.devRef .tc main_arg8) = _
  after_results_simp
  exact W2_arg8 m ρ c
theorem W4_arg11 (c : Dev nD) : W4 m ρ c (Proc.devRef .tc main_arg11) = (m ((c : Thread nD τ).loc main_arg11)) := by
  refine (W4_of_ne m ρ c main_arg11 (by decide)).trans ?_
  show StableHlo.after hostOps1 (W2 m ρ c) (Proc.devRef .tc main_arg11) = _
  after_results_simp
  exact W2_arg11 m ρ c
theorem W4_arg12 (c : Dev nD) : W4 m ρ c (Proc.devRef .tc main_arg12) = (m ((c : Thread nD τ).loc main_arg12)) := by
  refine (W4_of_ne m ρ c main_arg12 (by decide)).trans ?_
  show StableHlo.after hostOps1 (W2 m ρ c) (Proc.devRef .tc main_arg12) = _
  after_results_simp
  exact W2_arg12 m ρ c

/-! ## Region 2: entered after the second message passing -/

theorem V5_msg (c : Dev nD) : V5 m ρ c main_v41 = conv (x2 m c) (m ((c : Thread nD τ).loc main_arg1)) (m ((c : Thread nD τ).loc main_arg2)) := by
  show StableHlo.after hostOps2 (W4 m ρ c) (Proc.devRef .tc main_v41) = _
  after_results_simp
  rw [W4_x2, W4_arg1, W4_arg2]; rfl
theorem V5_state (c : Dev nD) : V5 m ρ c main_v1 = x0 m c := by
  show StableHlo.after hostOps2 (W4 m ρ c) (Proc.devRef .tc main_v1) = _
  after_results_simp
  exact W4_state m ρ c
theorem V5_wih (c : Dev nD) : V5 m ρ c main_v19 = transpose S128x384 [1, 0] (m ((c : Thread nD τ).loc main_arg5)) transposes_S384x128_S128x384_1_0 := by
  show StableHlo.after hostOps2 (W4 m ρ c) (Proc.devRef .tc main_v19) = _
  after_results_simp
  exact W4_wih m ρ c
theorem V5_whh (c : Dev nD) : V5 m ρ c main_v20 = transpose S128x384 [1, 0] (m ((c : Thread nD τ).loc main_arg7)) transposes_S384x128_S128x384_1_0 := by
  show StableHlo.after hostOps2 (W4 m ρ c) (Proc.devRef .tc main_v20) = _
  after_results_simp
  exact W4_whh m ρ c
theorem V5_bih (c : Dev nD) : V5 m ρ c main_v42 = shapeCast S1x384 (m ((c : Thread nD τ).loc main_arg6)) shapeCasts_S384_S1x384 := by
  show StableHlo.after hostOps2 (W4 m ρ c) (Proc.devRef .tc main_v42) = _
  after_results_simp
  rw [W4_arg6]; rfl
theorem V5_bhh (c : Dev nD) : V5 m ρ c main_v43 = shapeCast S1x384 (m ((c : Thread nD τ).loc main_arg8)) shapeCasts_S384_S1x384 := by
  show StableHlo.after hostOps2 (W4 m ρ c) (Proc.devRef .tc main_v43) = _
  after_results_simp
  rw [W4_arg8]; rfl
theorem V5_wout (c : Dev nD) : V5 m ρ c main_arg11 = (m ((c : Thread nD τ).loc main_arg11)) := by
  show StableHlo.after hostOps2 (W4 m ρ c) (Proc.devRef .tc main_arg11) = _
  after_results_simp
  exact W4_arg11 m ρ c
theorem V5_bout (c : Dev nD) : V5 m ρ c main_v44 = shapeCast S1x2 (m ((c : Thread nD τ).loc main_arg12)) shapeCasts_S2_S1x2 := by
  show StableHlo.after hostOps2 (W4 m ρ c) (Proc.devRef .tc main_v44) = _
  after_results_simp
  rw [W4_arg12]; rfl

/-- Region 2 leaves the result. -/
theorem W6_result (c : Dev nD) : W6 m ρ c (Proc.devRef .tc main_v45) = result m c := by
  refine (W6_arr m ρ c 8).trans ((Rows2.final (V5 m ρ) c).trans ?_)
  show gruClassify (V5 m ρ c main_v41) (V5 m ρ c main_v1) (truncf .bf16 (V5 m ρ c main_v19) bitsLt_bf16_f32) (V5 m ρ c main_v42)
    (truncf .bf16 (V5 m ρ c main_v20) bitsLt_bf16_f32) (V5 m ρ c main_v43) (truncf .bf16 (V5 m ρ c main_arg11) bitsLt_bf16_f32) (V5 m ρ c main_v44) = _
  rw [V5_msg, V5_state, V5_wih, V5_bih, V5_whh, V5_bhh, V5_wout, V5_bout]; rfl

/-! ## The run -/

set_option backward.isDefEq.respectTransparency.types false in
/-- Every weakly fair execution of the program terminates, nothing faulting, with the result buffer at the function result
    of the argument arrays and the arguments as launched: the launch over the program's segments, the last thread state
    read against the final state, the result buffer by W6_result and each argument by its walk back to the launch. -/
theorem run : θ_run defs (onTc (τ := τ) (main (F := Ideal))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v45 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Net

end
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«118627_j73658689126816_1_alg».proof.Proof.LibPlainDot
import proofs.«118627_j73658689126816_1_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.LibSplitDot.lean ====
/-
  Three readings of host operations over the extended reals, at an output index given by coordinates.
  `split_dot`: rows that come in two parts `X₁` (`K₁` columns) and `X₂` (`K₂` columns), laid side by side and multiplied in ONE
  `dot_general` by the transpose of a matrix `W` with one row per output feature and `K₁ + K₂` columns, give at `(p, q)`
    Σ_{k < K₁} X₁(p,k)·W(q,k) + Σ_{k < K₂} X₂(p,k)·W(q,K₁+k):
  a sum over `Fin (K₁ + K₂)` is the sum over its first `K₁` positions plus the sum over the remaining `K₂`, in any commutative
  additive monoid, so nothing is asked of the entries.
  `dot_transposed`: rows multiplied by the transpose of `W` give `Σ_k X(p,k)·W(q,k)`.
  `sigmoid_host`: the logistic function spelt as `1 / (1 + exp (−x))` in the host's operations, with the f32 word of 1.0 for
  both ones, is `Ideal.logistic x` on every extended real (the quotient's and the exponential's conventions at ±∞ are the
  definition's own).
-/
import Idealize.ShloMosaic.PureOps.Ideal.Laws
import Idealize.ShloMosaic.Lib.ValueIdx
import Idealize.ShloMosaic.Lib.IdealHost
import proofs.«118627_j73658689126816_1_alg».proof.Proof.LibPlainDot
import proofs.«118627_j73658689126816_1_alg».proof.Proof.LibSplitLayer

namespace Idealize.ShloMosaic.SplitDot

open Idealize.ShloMosaic.ValueIdx

variable {A K₁ K₂ K M : Nat}

/-- Rows in two parts, side by side, against a transposed weight matrix: the two partial sums. -/
theorem split_dot (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩) (p : Fin A) (q : Fin M) :
    FloatOps.dotGeneral (DotDims.plain A (K₁ + K₂) M) prec sched
        (concatenate ⟨2, ![A, K₁ + K₂]⟩ 1 [⟨⟨2, ![A, K₁]⟩, X₁⟩, ⟨⟨2, ![A, K₂]⟩, X₂⟩] hcat)
        (transpose ⟨2, ![K₁ + K₂, M]⟩ [1, 0] W htr) (ix2 p q)
      = (∑ k : Fin K₁, X₁ (ix2 p k) * W (ix2 q (Fin.castAdd K₂ k))) + (∑ k : Fin K₂, X₂ (ix2 p k) * W (ix2 q (Fin.natAdd K₁ k))) := by
  refine (PlainDot.dotGeneral_apply_ix2 prec sched _ _ p q).trans ?_
  rw [Fin.sum_univ_add]
  refine congrArg₂ (· + ·) (Finset.sum_congr rfl fun k _ => ?_) (Finset.sum_congr rfl fun k _ => ?_)
  · exact congrArg₂ (· * ·) (SplitLayer.concat_cols_left X₁ X₂ hcat p k) (SplitLayer.transpose_ix2 W htr (Fin.castAdd K₂ k) q)
  · exact congrArg₂ (· * ·) (SplitLayer.concat_cols_right X₁ X₂ hcat p k) (SplitLayer.transpose_ix2 W htr (Fin.natAdd K₁ k) q)

/-- Rows against a transposed weight matrix: the matrix read row by row. -/
theorem dot_transposed (prec : Option ContractPrecision) (sched : HostSchedule)
    (X : FVec Ideal ⟨2, ![A, K]⟩ .f32) (W : FVec Ideal ⟨2, ![M, K]⟩ .f32)
    (htr : (⟨2, ![M, K]⟩ : Shape).Transposes [1, 0] ⟨2, ![K, M]⟩) (p : Fin A) (q : Fin M) :
    FloatOps.dotGeneral (DotDims.plain A K M) prec sched X (transpose ⟨2, ![K, M]⟩ [1, 0] W htr) (ix2 p q)
      = ∑ k : Fin K, X (ix2 p k) * W (ix2 q k) :=
  (PlainDot.dotGeneral_apply_ix2 prec sched _ _ p q).trans
    (Finset.sum_congr rfl fun k _ => congrArg (X (ix2 p k) * ·) (SplitLayer.transpose_ix2 W htr k q))

/-- The host's `1 / (1 + exp (−x))` with the f32 word of 1.0 is the logistic function. -/
theorem sigmoid_host (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  rw [Ideal.ofBits_def, Ideal.ofBits_one_f32]
  rfl

end Idealize.ShloMosaic.SplitDot
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«118627_j73658689126816_1_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.RefLayers.lean ====
/-
  The reference's stages as the row layers of LibGruRows, over the extended reals.

  A dense layer on the host is one dot_general plus a bias vector lifted twice; it is the dense layer on the weights rounded
  to bf16 (the identity here) and the bias recast to one row. The recurrent cell is spelt with the logistic function written
  out, 1 / (1 + exp (−x)) with the f32 word of 1.0: on every extended real that is the logistic function itself. The
  log-softmax of two logits is spelt with a maximum-reduce from −∞, one more maximum with −∞, and a sum-reduce from 0,
  each kept as a column and repeated along the row; 0 + s = s removes the sum's initial value.
-/
import proofs.«118627_j73658689126816_1_alg».proof.Proof.Gen.ReferenceIdeal
import proofs.«118627_j73658689126816_1_alg».proof.Proof.LibGruRows
import proofs.«118627_j73658689126816_1_alg».proof.Proof.LibSplitDot
import proofs.«118627_j73658689126816_1_alg».proof.Proof.LibHostRow
import Idealize.ShloMosaic.Lib.Pipeline.Value
import Idealize.ShloMosaic.Lib.ValueIdx
import Idealize.ShloMosaic.PureOps.Ideal.Laws

noncomputable section

namespace Cert.ReferenceIdeal.Layers

open Idealize.ShloMosaic Idealize.ShloMosaic.ValueIdx Idealize.ShloMosaic.Affine
open Cert.ReferenceIdeal Cert.ReferenceIdeal.Gen Cert.GatedRows

/-! ## Pointwise host operations at an index -/

theorem hdivf_at {s : Shape} {φ : FTy} (a b : FVec Ideal s φ) (i : s.Idx) : Host.divf a b i = FloatOps.hostDivf (a i) (b i) := rfl
theorem hexp_at {s : Shape} {φ : FTy} (a : FVec Ideal s φ) (i : s.Idx) : Host.exp a i = Ideal.exp (a i) := rfl
theorem hlog_at {s : Shape} {φ : FTy} (a : FVec Ideal s φ) (i : s.Idx) : Host.log a i = Ideal.log (a i) := rfl
theorem htanh_at {s : Shape} {φ : FTy} (a : FVec Ideal s φ) (i : s.Idx) : Host.tanh a i = Ideal.tanh (a i) := rfl

/-- A rank-0 constant repeated over any shape reads its word everywhere. -/
theorem splat_at {t : Shape} (w : BitVec 32) (h : S_.BroadcastsInDim t ![]) (i : t.Idx) :
    broadcastInDim t ![] h (constant (F := Ideal) S_ .f32 w) i = Ideal.ofBits .f32 w :=
  broadcastInDim_apply _ h _ i ix0 (fun a => a.elim0)

/-! ## The logistic function written out -/

abbrev hostOne : FVec Ideal S100000x128 .f32 :=
  broadcastInDim S100000x128 ![] bcast_S_S100000x128 (constant (F := Ideal) S_ .f32 0x3F800000#32)

/-- 1 / (1 + exp (−c)), entry by entry. -/
abbrev hostSig (c : FVec Ideal S100000x128 .f32) : FVec Ideal S100000x128 .f32 :=
  Host.divf hostOne (addf hostOne (Host.exp (Host.negf c)))

theorem hostSig_at (c : FVec Ideal S100000x128 .f32) (i : S100000x128.Idx) : hostSig c i = Ideal.logistic (c i) := by
  show FloatOps.hostDivf (hostOne i) (FloatOps.addf (hostOne i) (FloatOps.hostUnary .exp (FloatOps.hostNegf (c i)))) = _
  rw [show hostOne i = Ideal.ofBits .f32 0x3F800000#32 from splat_at _ _ i]
  exact SplitDot.sigmoid_host (c i)

/-! ## The recurrent cell in the host's spelling -/

def hostCell (GI GH : FVec Ideal S100000x384 .f32) (H : FVec Ideal S100000x128 .f32) : FVec Ideal S100000x128 .f32 :=
  addf (mulf (subf hostOne
          (hostSig (addf (extractStridedSlice S100000x128 ![0, 128] GI slices_S100000x384_S100000x128_0_128)
            (extractStridedSlice S100000x128 ![0, 128] GH slices_S100000x384_S100000x128_0_128))))
        (Host.tanh (addf (extractStridedSlice S100000x128 ![0, 256] GI slices_S100000x384_S100000x128_0_256)
          (mulf (hostSig (addf (extractStridedSlice S100000x128 ![0, 0] GI slices_S100000x384_S100000x128_0_0)
              (extractStridedSlice S100000x128 ![0, 0] GH slices_S100000x384_S100000x128_0_0)))
            (extractStridedSlice S100000x128 ![0, 256] GH slices_S100000x384_S100000x128_0_256)))))
    (mulf (hostSig (addf (extractStridedSlice S100000x128 ![0, 128] GI slices_S100000x384_S100000x128_0_128)
        (extractStridedSlice S100000x128 ![0, 128] GH slices_S100000x384_S100000x128_0_128))) H)

theorem hostCell_at (GI GH : FVec Ideal S100000x384 .f32) (H : FVec Ideal S100000x128 .f32) (p : Fin 100000) (q : Fin 128) :
    hostCell GI GH H (ix2 p q) = gruAt GI GH H p q := by
  unfold hostCell
  simp only [ValueIdx.addf_apply, ValueIdx.mulf_apply, ValueIdx.subf_apply, hostSig_at, htanh_at,
    gate0_at, gate1_at, gate2_at]
  rw [show hostOne (ix2 p q) = Ideal.ofBits .f32 0x3F800000#32 from splat_at _ _ _]
  rfl

/-- The cell of dense pre-activations, as a whole array. -/
theorem hostCell_eq {φ : FTy} (Ms H : FVec Ideal S100000x128 .f32) (Wi : FVec Ideal S128x384 φ) (bi : FVec Ideal S1x384 .f32)
    (Wh : FVec Ideal S128x384 φ) (bh : FVec Ideal S1x384 .f32) :
    hostCell (affine Ms Wi bi) (affine H Wh bh) H = gru Ms H Wi bi Wh bh := by
  funext i
  obtain ⟨p, q, rfl⟩ : ∃ (p : Fin 100000) (q : Fin 128), i = ix2 p q := ⟨i 0, i 1, eq_ix2 i⟩
  rw [hostCell_at, gru_ix2]

/-! ## A dense layer in the host's spelling -/

theorem hostDense {K M : Nat} (X : FVec Ideal ⟨2, ![100000, K]⟩ .f32) (W : FVec Ideal ⟨2, ![K, M]⟩ .f32) (b : FVec Ideal ⟨1, ![M]⟩ .f32)
    (ht : FTy.bf16.bits < FTy.f32.bits) (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![100000, M]⟩ ![0, 1]) :
    addf (Host.dotGeneral (DotDims.plain 100000 K M) none X W)
        (broadcastInDim ⟨2, ![100000, M]⟩ ![0, 1] h2 (broadcastInDim ⟨2, ![1, M]⟩ ![1] h1 b))
      = affine X (truncf .bf16 W ht) (shapeCast ⟨2, ![1, M]⟩ b hc) :=
  (Affine.affine_eq_host none _ X W b ht hc h1 h2).symm

/-! ## The log-softmax of two logits in the host's spelling -/

/-- The row maximum kept as a column and repeated along the row. -/
abbrev hostMax (L : FVec Ideal S100000x2 .f32) : FVec Ideal S100000x2 .f32 :=
  broadcastInDim S100000x2 ![0, 1] bcast_S100000x1_S100000x2_0_1 (broadcastInDim S100000x1 ![0] bcast_S100000_S100000x1_0
    (maximumf (broadcastInDim S100000 ![] bcast_S_S100000 (constant (F := Ideal) S_ .f32 0xFF800000#32))
      (Host.reduce FloatOps.maximumf L (constant (F := Ideal) S_ .f32 0xFF800000#32) reducesTo_S100000x2_S100000_d1 h_S_)))

theorem hostMax_at (L : FVec Ideal S100000x2 .f32) (p : Fin 100000) (c : Fin 2) : hostMax L (ix2 p c) = rowMax L p := by
  refine (HostRow.bcast_a_ab_apply _ bcast_S100000_S100000x1_0 bcast_S100000x1_S100000x2_0_1 p c).trans ?_
  rw [ValueIdx.maximumf_apply]
  refine congrArg₂ max (splat_at _ _ _) ?_
  exact RowColumn.hostReduce_maximumf_cols (a := 100000) (b := 2) L _ reducesTo_S100000x2_S100000_d1 (by decide) h_S_ p

def hostLsm (L : FVec Ideal S100000x2 .f32) : FVec Ideal S100000x2 .f32 :=
  subf (subf L (hostMax L))
    (broadcastInDim S100000x2 ![0, 1] bcast_S100000x1_S100000x2_0_1 (Host.log (broadcastInDim S100000x1 ![0] bcast_S100000_S100000x1_0
      (Host.reduceAdd (Host.exp (subf L (hostMax L))) (constant (F := Ideal) S_ .f32 0x00000000#32) reducesTo_S100000x2_S100000_d1 h_S_))))

theorem hostLsm_at (L : FVec Ideal S100000x2 .f32) (p : Fin 100000) (c : Fin 2) : hostLsm L (ix2 p c) = logSoftmax L (ix2 p c) := by
  unfold hostLsm
  rw [ValueIdx.subf_apply, ValueIdx.subf_apply, hostMax_at, HostRow.bcast_a1_ab_apply, hlog_at, HostRow.bcast_a_a1_apply, logSoftmax_ix2]
  refine congrArg (fun s => (L (ix2 p c) - rowMax L p) - Ideal.log s) ?_
  refine (HostRow.hostReduceAdd_cols (a := 100000) (b := 2) _ _ reducesTo_S100000x2_S100000_d1 (by decide) h_S_ p).trans ?_
  rw [ValueIdx.constant_apply, Ideal.ofBits_zero_f32, zero_add]
  refine Finset.sum_congr rfl fun k _ => ?_
  rw [hexp_at, ValueIdx.subf_apply, hostMax_at]

theorem hostLsm_eq (L : FVec Ideal S100000x2 .f32) : hostLsm L = logSoftmax L := by
  funext i
  obtain ⟨p, c, rfl⟩ : ∃ (p : Fin 100000) (c : Fin 2), i = ix2 p c := ⟨i 0, i 1, eq_ix2 i⟩
  exact hostLsm_at L p c

end Cert.ReferenceIdeal.Layers

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.RefStages.lean ====
/-
  The idealized reference program's result array as ONE function of its argument arrays, read stage by stage.

  The reference is 153 host operations in a line. Read as one closed term its result is very large (each stage's value is
  used several times by the next), so the fold over the operations is cut at five places and each stage's buffer contents are
  named: the first dense layer x0; the messages conv x0; the first cell and the dense layer after it, x2; the messages conv x2;
  the second cell and the two logits; their log-softmax. Running two lists of operations one after the other is running
  their concatenation, so the six stages in a row are the program. Each stage is then one of the row layers of LibGruRows
  (RefLayers), and the message passing is one chain of host operations kept closed.
  The six lists below are the printed program's own operations, in order (the generated list ops cut at five places).
-/
import proofs.«118627_j73658689126816_1_alg».proof.Proof.RefOps
import proofs.«118627_j73658689126816_1_alg».proof.Proof.RefLayers
import proofs.«118627_j73658689126816_1_alg».proof.Proof.LibFold
import Idealize.ShloMosaic.Lib.StableHlo.Run

set_option maxRecDepth 16384

noncomputable section

namespace Cert.ReferenceIdeal.Stages

open Idealize.ShloMosaic Idealize.ShloMosaic.TcCoe Idealize.ShloMosaic.ValueIdx Idealize.ShloMosaic.Affine
open Idealize.SL.Sem Idealize.ShloMosaic.StableHlo
open Cert.ReferenceIdeal Cert.ReferenceIdeal.Gen Cert.ReferenceIdeal.Value Cert.ReferenceIdeal.Layers Cert.GatedRows

/-! ## The program cut into six stages -/

section Lists
variable {F : FTy → Type} [FloatOps F]

/-- Stage A: the first dense layer (4 operations). -/
abbrev opsA : List (HloOp τ sig (Elt F)) :=
  [ binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)) ]

/-- Stage B: the first message passing (20 operations). -/
abbrev opsB : List (HloOp τ sig (Elt F)) :=
  [ unary main_arg1 main_v4 ((extractStridedSlice S1x1600000 ![0, 0] · slices_S2x1600000_S1x1600000_0_0) : (⟨S2x1600000, .i32⟩ : BufTy).Contents (Elt F) → (⟨S1x1600000, .i32⟩ : BufTy).Contents (Elt F)),
    reshape main_v4 main_v5 rfl shapeCasts_S1x1600000_S1600000,
    unary main_arg1 main_v6 ((extractStridedSlice S1x1600000 ![1, 0] · slices_S2x1600000_S1x1600000_1_0) : (⟨S2x1600000, .i32⟩ : BufTy).Contents (Elt F) → (⟨S1x1600000, .i32⟩ : BufTy).Contents (Elt F)),
    reshape main_v6 main_v7 rfl shapeCasts_S1x1600000_S1600000,
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v5 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v5 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v5 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_v3 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v15 (broadcastInDim S1600000x1 ![0] bcast_S1600000_S1600000x1_0 : (⟨S1600000, .f32⟩ : BufTy).Contents (Elt F) → (⟨S1600000x1, .f32⟩ : BufTy).Contents (Elt F)),
    unary main_v15 main_v16 (broadcastInDim S1600000x128 ![0, 1] bcast_S1600000x1_S1600000x128_0_1 : (⟨S1600000x1, .f32⟩ : BufTy).Contents (Elt F) → (⟨S1600000x128, .f32⟩ : BufTy).Contents (Elt F)),
    binary main_v14 main_v16 main_v17 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v18 (broadcastInDim S100000x128 ![] bcast_S_S100000x128 : (⟨S_, .f32⟩ : BufTy).Contents (Elt F) → (⟨S100000x128, .f32⟩ : BufTy).Contents (Elt F)),
    unary main_v7 main_v19 (broadcastInDim S1600000x1 ![0] bcast_S1600000_S1600000x1_0 : (⟨S1600000, .i32⟩ : BufTy).Contents (Elt F) → (⟨S1600000x1, .i32⟩ : BufTy).Contents (Elt F)),
    ternary main_v18 main_v19 main_v17 main_v20 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Stage C: the first cell and the dense layer after it (47 operations). -/
abbrev opsC : List (HloOp τ sig (Elt F)) :=
  [ unary main_arg5 main_v21 ((transpose S128x384 [1, 0] · transposes_S384x128_S128x384_1_0) : (⟨S384x128, .f32⟩ : BufTy).Contents (Elt F) → (⟨S128x384, .f32⟩ : BufTy).Contents (Elt F)),
    binary main_v20 main_v21 main_v22 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v23 (broadcastInDim S1x384 ![1] bcast_S384_S1x384_1 : (⟨S384, .f32⟩ : BufTy).Contents (Elt F) → (⟨S1x384, .f32⟩ : BufTy).Contents (Elt F)),
    unary main_v23 main_v24 (broadcastInDim S100000x384 ![0, 1] bcast_S1x384_S100000x384_0_1 : (⟨S1x384, .f32⟩ : BufTy).Contents (Elt F) → (⟨S100000x384, .f32⟩ : BufTy).Contents (Elt F)),
    binary main_v22 main_v24 main_v25 (addf : (⟨S100000x384, .f32⟩ : BufTy).Contents (Elt F) → (⟨S100000x384, .f32⟩ : BufTy).Contents (Elt F) → (⟨S100000x384, .f32⟩ : BufTy).Contents (Elt F)),
    unary main_arg7 main_v26 ((transpose S128x384 [1, 0] · transposes_S384x128_S128x384_1_0) : (⟨S384x128, .f32⟩ : BufTy).Contents (Elt F) → (⟨S128x384, .f32⟩ : BufTy).Contents (Elt F)),
    binary main_v3 main_v26 main_v27 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg8 main_v28 (broadcastInDim S1x384 ![1] bcast_S384_S1x384_1 : (⟨S384, .f32⟩ : BufTy).Contents (Elt F) → (⟨S1x384, .f32⟩ : BufTy).Contents (Elt F)),
    unary main_v28 main_v29 (broadcastInDim S100000x384 ![0, 1] bcast_S1x384_S100000x384_0_1 : (⟨S1x384, .f32⟩ : BufTy).Contents (Elt F) → (⟨S100000x384, .f32⟩ : BufTy).Contents (Elt F)),
    binary main_v27 main_v29 main_v30 (addf : (⟨S100000x384, .f32⟩ : BufTy).Contents (Elt F) → (⟨S100000x384, .f32⟩ : BufTy).Contents (Elt F) → (⟨S100000x384, .f32⟩ : BufTy).Contents (Elt F)),
    unary main_v25 main_v31 ((extractStridedSlice S100000x128 ![0, 0] · slices_S100000x384_S100000x128_0_0) : (⟨S100000x384, .f32⟩ : BufTy).Contents (Elt F) → (⟨S100000x128, .f32⟩ : BufTy).Contents (Elt F)),
    unary main_v25 main_v32 ((extractStridedSlice S100000x128 ![0, 128] · slices_S100000x384_S100000x128_0_128) : (⟨S100000x384, .f32⟩ : BufTy).Contents (Elt F) → (⟨S100000x128, .f32⟩ : BufTy).Contents (Elt F)),
    unary main_v25 main_v33 ((extractStridedSlice S100000x128 ![0, 256] · slices_S100000x384_S100000x128_0_256) : (⟨S100000x384, .f32⟩ : BufTy).Contents (Elt F) → (⟨S100000x128, .f32⟩ : BufTy).Contents (Elt F)),
    unary main_v30 main_v34 ((extractStridedSlice S100000x128 ![0, 0] · slices_S100000x384_S100000x128_0_0) : (⟨S100000x384, .f32⟩ : BufTy).Contents (Elt F) → (⟨S100000x128, .f32⟩ : BufTy).Contents (Elt F)),
    unary main_v30 main_v35 ((extractStridedSlice S100000x128 ![0, 128] · slices_S100000x384_S100000x128_0_128) : (⟨S100000x384, .f32⟩ : BufTy).Contents (Elt F) → (⟨S100000x128, .f32⟩ : BufTy).Contents (Elt F)),
    unary main_v30 main_v36 ((extractStridedSlice S100000x128 ![0, 256] · slices_S100000x384_S100000x128_0_256) : (⟨S100000x384, .f32⟩ : BufTy).Contents (Elt F) → (⟨S100000x128, .f32⟩ : BufTy).Contents (Elt F)),
    binary main_v31 main_v34 main_v37 (addf : (⟨S100000x128, .f32⟩ : BufTy).Contents (Elt F) → (⟨S100000x128, .f32⟩ : BufTy).Contents (Elt F) → (⟨S100000x128, .f32⟩ : BufTy).Contents (Elt F)),
    unary main_v37 main_v38 (Host.negf : (⟨S100000x128, .f32⟩ : BufTy).Contents (Elt F) → (⟨S100000x128, .f32⟩ : BufTy).Contents (Elt F)),
    unary main_v38 main_v39 (Host.exp : (⟨S100000x128, .f32⟩ : BufTy).Contents (Elt F) → (⟨S100000x128, .f32⟩ : BufTy).Contents (Elt F)),
    nullary main_cst_1 (constant S_ .f32 0x3F800000#32),
    unary main_cst_1 main_v40 (broadcastInDim S100000x128 ![] bcast_S_S100000x128 : (⟨S_, .f32⟩ : BufTy).Contents (Elt F) → (⟨S100000x128, .f32⟩ : BufTy).Contents (Elt F)),
    binary main_v40 main_v39 main_v41 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x3F800000#32),
    unary main_cst_2 main_v42 (broadcastInDim S100000x128 ![] bcast_S_S100000x128 : (⟨S_, .f32⟩ : BufTy).Contents (Elt F) → (⟨S100000x128, .f32⟩ : BufTy).Contents (Elt F)),
    binary main_v42 main_v41 main_v43 (Host.divf : (⟨S100000x128, .f32⟩ : BufTy).Contents (Elt F) → (⟨S100000x128, .f32⟩ : BufTy).Contents (Elt F) → (⟨S100000x128, .f32⟩ : BufTy).Contents (Elt F)),
    binary main_v32 main_v35 main_v44 (addf : (⟨S100000x128, .f32⟩ : BufTy).Contents (Elt F) → (⟨S100000x128, .f32⟩ : BufTy).Contents (Elt F) → (⟨S100000x128, .f32⟩ : BufTy).Contents (Elt F)),
    unary main_v44 main_v45 (Host.negf : (⟨S100000x128, .f32⟩ : BufTy).Contents (Elt F) → (⟨S100000x128, .f32⟩ : BufTy).Contents (Elt F)),
    unary main_v45 main_v46 (Host.exp : (⟨S100000x128, .f32⟩ : BufTy).Contents (Elt F) → (⟨S100000x128, .f32⟩ : BufTy).Contents (Elt F)),
    nullary main_cst_3 (constant S_ .f32 0x3F800000#32),
    unary main_cst_3 main_v47 (broadcastInDim S100000x128 ![] bcast_S_S100000x128 : (⟨S_, .f32⟩ : BufTy).Contents (Elt F) → (⟨S100000x128, .f32⟩ : BufTy).Contents (Elt F)),
    binary main_v47 main_v46 main_v48 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v49 (broadcastInDim S100000x128 ![] bcast_S_S100000x128 : (⟨S_, .f32⟩ : BufTy).Contents (Elt F) → (⟨S100000x128, .f32⟩ : BufTy).Contents (Elt F)),
    binary main_v49 main_v48 main_v50 (Host.divf : (⟨S100000x128, .f32⟩ : BufTy).Contents (Elt F) → (⟨S100000x128, .f32⟩ : BufTy).Contents (Elt F) → (⟨S100000x128, .f32⟩ : BufTy).Contents (Elt F)),
    binary main_v43 main_v36 main_v51 (mulf : (⟨S100000x128, .f32⟩ : BufTy).Contents (Elt F) → (⟨S100000x128, .f32⟩ : BufTy).Contents (Elt F) → (⟨S100000x128, .f32⟩ : BufTy).Contents (Elt F)),
    binary main_v33 main_v51 main_v52 (addf : (⟨S100000x128, .f32⟩ : BufTy).Contents (Elt F) → (⟨S100000x128, .f32⟩ : BufTy).Contents (Elt F) → (⟨S100000x128, .f32⟩ : BufTy).Contents (Elt F)),
    unary main_v52 main_v53 (Host.tanh : (⟨S100000x128, .f32⟩ : BufTy).Contents (Elt F) → (⟨S100000x128, .f32⟩ : BufTy).Contents (Elt F)),
    nullary main_cst_5 (constant S_ .f32 0x3F800000#32),
    unary main_cst_5 main_v54 (broadcastInDim S100000x128 ![] bcast_S_S100000x128 : (⟨S_, .f32⟩ : BufTy).Contents (Elt F) → (⟨S100000x128, .f32⟩ : BufTy).Contents (Elt F)),
    binary main_v54 main_v50 main_v55 (subf : (⟨S100000x128, .f32⟩ : BufTy).Contents (Elt F) → (⟨S100000x128, .f32⟩ : BufTy).Contents (Elt F) → (⟨S100000x128, .f32⟩ : BufTy).Contents (Elt F)),
    binary main_v55 main_v53 main_v56 (mulf : (⟨S100000x128, .f32⟩ : BufTy).Contents (Elt F) → (⟨S100000x128, .f32⟩ : BufTy).Contents (Elt F) → (⟨S100000x128, .f32⟩ : BufTy).Contents (Elt F)),
    binary main_v50 main_v3 main_v57 (mulf : (⟨S100000x128, .f32⟩ : BufTy).Contents (Elt F) → (⟨S100000x128, .f32⟩ : BufTy).Contents (Elt F) → (⟨S100000x128, .f32⟩ : BufTy).Contents (Elt F)),
    binary main_v56 main_v57 main_v58 (addf : (⟨S100000x128, .f32⟩ : BufTy).Contents (Elt F) → (⟨S100000x128, .f32⟩ : BufTy).Contents (Elt F) → (⟨S100000x128, .f32⟩ : BufTy).Contents (Elt F)),
    binary main_v58 main_arg9 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)) ]

/-- Stage D: the second message passing (20 operations). -/
abbrev opsD : List (HloOp τ sig (Elt F)) :=
  [ unary main_arg1 main_v63 ((extractStridedSlice S1x1600000 ![0, 0] · slices_S2x1600000_S1x1600000_0_0) : (⟨S2x1600000, .i32⟩ : BufTy).Contents (Elt F) → (⟨S1x1600000, .i32⟩ : BufTy).Contents (Elt F)),
    reshape main_v63 main_v64 rfl shapeCasts_S1x1600000_S1600000,
    unary main_arg1 main_v65 ((extractStridedSlice S1x1600000 ![1, 0] · slices_S2x1600000_S1x1600000_1_0) : (⟨S2x1600000, .i32⟩ : BufTy).Contents (Elt F) → (⟨S1x1600000, .i32⟩ : BufTy).Contents (Elt F)),
    reshape main_v65 main_v66 rfl shapeCasts_S1x1600000_S1600000,
    nullary main_c_6 (constantI S_ 32 0#32),
    unary main_c_6 main_v67 (broadcastInDim S1600000 ![] bcast_S_S1600000 : (⟨S_, .i32⟩ : BufTy).Contents (Elt F) → (⟨S1600000, .i32⟩ : BufTy).Contents (Elt F)),
    binary main_v64 main_v67 main_v68 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v69 (broadcastInDim S1600000 ![] bcast_S_S1600000 : (⟨S_, .i32⟩ : BufTy).Contents (Elt F) → (⟨S1600000, .i32⟩ : BufTy).Contents (Elt F)),
    binary main_v64 main_v69 main_v70 (addi : (⟨S1600000, .i32⟩ : BufTy).Contents (Elt F) → (⟨S1600000, .i32⟩ : BufTy).Contents (Elt F) → (⟨S1600000, .i32⟩ : BufTy).Contents (Elt F)),
    ternary main_v68 main_v70 main_v64 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v71 main_v72 (broadcastInDim S1600000x1 ![0] bcast_S1600000_S1600000x1_0 : (⟨S1600000, .i32⟩ : BufTy).Contents (Elt F) → (⟨S1600000x1, .i32⟩ : BufTy).Contents (Elt F)),
    binary main_v62 main_v72 main_v73 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v74 (broadcastInDim S1600000x1 ![0] bcast_S1600000_S1600000x1_0 : (⟨S1600000, .f32⟩ : BufTy).Contents (Elt F) → (⟨S1600000x1, .f32⟩ : BufTy).Contents (Elt F)),
    unary main_v74 main_v75 (broadcastInDim S1600000x128 ![0, 1] bcast_S1600000x1_S1600000x128_0_1 : (⟨S1600000x1, .f32⟩ : BufTy).Contents (Elt F) → (⟨S1600000x128, .f32⟩ : BufTy).Contents (Elt F)),
    binary main_v73 main_v75 main_v76 (mulf : (⟨S1600000x128, .f32⟩ : BufTy).Contents (Elt F) → (⟨S1600000x128, .f32⟩ : BufTy).Contents (Elt F) → (⟨S1600000x128, .f32⟩ : BufTy).Contents (Elt F)),
    nullary main_cst_8 (constant S_ .f32 0x00000000#32),
    unary main_cst_8 main_v77 (broadcastInDim S100000x128 ![] bcast_S_S100000x128 : (⟨S_, .f32⟩ : BufTy).Contents (Elt F) → (⟨S100000x128, .f32⟩ : BufTy).Contents (Elt F)),
    unary main_v66 main_v78 (broadcastInDim S1600000x1 ![0] bcast_S1600000_S1600000x1_0 : (⟨S1600000, .i32⟩ : BufTy).Contents (Elt F) → (⟨S1600000x1, .i32⟩ : BufTy).Contents (Elt F)),
    ternary main_v77 main_v78 main_v76 main_v79 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Stage E: the second cell and the classifier (47 operations). -/
abbrev opsE : List (HloOp τ sig (Elt F)) :=
  [ unary main_arg5 main_v80 ((transpose S128x384 [1, 0] · transposes_S384x128_S128x384_1_0) : (⟨S384x128, .f32⟩ : BufTy).Contents (Elt F) → (⟨S128x384, .f32⟩ : BufTy).Contents (Elt F)),
    binary main_v79 main_v80 main_v81 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v82 (broadcastInDim S1x384 ![1] bcast_S384_S1x384_1 : (⟨S384, .f32⟩ : BufTy).Contents (Elt F) → (⟨S1x384, .f32⟩ : BufTy).Contents (Elt F)),
    unary main_v82 main_v83 (broadcastInDim S100000x384 ![0, 1] bcast_S1x384_S100000x384_0_1 : (⟨S1x384, .f32⟩ : BufTy).Contents (Elt F) → (⟨S100000x384, .f32⟩ : BufTy).Contents (Elt F)),
    binary main_v81 main_v83 main_v84 (addf : (⟨S100000x384, .f32⟩ : BufTy).Contents (Elt F) → (⟨S100000x384, .f32⟩ : BufTy).Contents (Elt F) → (⟨S100000x384, .f32⟩ : BufTy).Contents (Elt F)),
    unary main_arg7 main_v85 ((transpose S128x384 [1, 0] · transposes_S384x128_S128x384_1_0) : (⟨S384x128, .f32⟩ : BufTy).Contents (Elt F) → (⟨S128x384, .f32⟩ : BufTy).Contents (Elt F)),
    binary main_v3 main_v85 main_v86 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg8 main_v87 (broadcastInDim S1x384 ![1] bcast_S384_S1x384_1 : (⟨S384, .f32⟩ : BufTy).Contents (Elt F) → (⟨S1x384, .f32⟩ : BufTy).Contents (Elt F)),
    unary main_v87 main_v88 (broadcastInDim S100000x384 ![0, 1] bcast_S1x384_S100000x384_0_1 : (⟨S1x384, .f32⟩ : BufTy).Contents (Elt F) → (⟨S100000x384, .f32⟩ : BufTy).Contents (Elt F)),
    binary main_v86 main_v88 main_v89 (addf : (⟨S100000x384, .f32⟩ : BufTy).Contents (Elt F) → (⟨S100000x384, .f32⟩ : BufTy).Contents (Elt F) → (⟨S100000x384, .f32⟩ : BufTy).Contents (Elt F)),
    unary main_v84 main_v90 ((extractStridedSlice S100000x128 ![0, 0] · slices_S100000x384_S100000x128_0_0) : (⟨S100000x384, .f32⟩ : BufTy).Contents (Elt F) → (⟨S100000x128, .f32⟩ : BufTy).Contents (Elt F)),
    unary main_v84 main_v91 ((extractStridedSlice S100000x128 ![0, 128] · slices_S100000x384_S100000x128_0_128) : (⟨S100000x384, .f32⟩ : BufTy).Contents (Elt F) → (⟨S100000x128, .f32⟩ : BufTy).Contents (Elt F)),
    unary main_v84 main_v92 ((extractStridedSlice S100000x128 ![0, 256] · slices_S100000x384_S100000x128_0_256) : (⟨S100000x384, .f32⟩ : BufTy).Contents (Elt F) → (⟨S100000x128, .f32⟩ : BufTy).Contents (Elt F)),
    unary main_v89 main_v93 ((extractStridedSlice S100000x128 ![0, 0] · slices_S100000x384_S100000x128_0_0) : (⟨S100000x384, .f32⟩ : BufTy).Contents (Elt F) → (⟨S100000x128, .f32⟩ : BufTy).Contents (Elt F)),
    unary main_v89 main_v94 ((extractStridedSlice S100000x128 ![0, 128] · slices_S100000x384_S100000x128_0_128) : (⟨S100000x384, .f32⟩ : BufTy).Contents (Elt F) → (⟨S100000x128, .f32⟩ : BufTy).Contents (Elt F)),
    unary main_v89 main_v95 ((extractStridedSlice S100000x128 ![0, 256] · slices_S100000x384_S100000x128_0_256) : (⟨S100000x384, .f32⟩ : BufTy).Contents (Elt F) → (⟨S100000x128, .f32⟩ : BufTy).Contents (Elt F)),
    binary main_v90 main_v93 main_v96 (addf : (⟨S100000x128, .f32⟩ : BufTy).Contents (Elt F) → (⟨S100000x128, .f32⟩ : BufTy).Contents (Elt F) → (⟨S100000x128, .f32⟩ : BufTy).Contents (Elt F)),
    unary main_v96 main_v97 (Host.negf : (⟨S100000x128, .f32⟩ : BufTy).Contents (Elt F) → (⟨S100000x128, .f32⟩ : BufTy).Contents (Elt F)),
    unary main_v97 main_v98 (Host.exp : (⟨S100000x128, .f32⟩ : BufTy).Contents (Elt F) → (⟨S100000x128, .f32⟩ : BufTy).Contents (Elt F)),
    nullary main_cst_9 (constant S_ .f32 0x3F800000#32),
    unary main_cst_9 main_v99 (broadcastInDim S100000x128 ![] bcast_S_S100000x128 : (⟨S_, .f32⟩ : BufTy).Contents (Elt F) → (⟨S100000x128, .f32⟩ : BufTy).Contents (Elt F)),
    binary main_v99 main_v98 main_v100 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F800000#32),
    unary main_cst_10 main_v101 (broadcastInDim S100000x128 ![] bcast_S_S100000x128 : (⟨S_, .f32⟩ : BufTy).Contents (Elt F) → (⟨S100000x128, .f32⟩ : BufTy).Contents (Elt F)),
    binary main_v101 main_v100 main_v102 (Host.divf : (⟨S100000x128, .f32⟩ : BufTy).Contents (Elt F) → (⟨S100000x128, .f32⟩ : BufTy).Contents (Elt F) → (⟨S100000x128, .f32⟩ : BufTy).Contents (Elt F)),
    binary main_v91 main_v94 main_v103 (addf : (⟨S100000x128, .f32⟩ : BufTy).Contents (Elt F) → (⟨S100000x128, .f32⟩ : BufTy).Contents (Elt F) → (⟨S100000x128, .f32⟩ : BufTy).Contents (Elt F)),
    unary main_v103 main_v104 (Host.negf : (⟨S100000x128, .f32⟩ : BufTy).Contents (Elt F) → (⟨S100000x128, .f32⟩ : BufTy).Contents (Elt F)),
    unary main_v104 main_v105 (Host.exp : (⟨S100000x128, .f32⟩ : BufTy).Contents (Elt F) → (⟨S100000x128, .f32⟩ : BufTy).Contents (Elt F)),
    nullary main_cst_11 (constant S_ .f32 0x3F800000#32),
    unary main_cst_11 main_v106 (broadcastInDim S100000x128 ![] bcast_S_S100000x128 : (⟨S_, .f32⟩ : BufTy).Contents (Elt F) → (⟨S100000x128, .f32⟩ : BufTy).Contents (Elt F)),
    binary main_v106 main_v105 main_v107 (addf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3F800000#32),
    unary main_cst_12 main_v108 (broadcastInDim S100000x128 ![] bcast_S_S100000x128 : (⟨S_, .f32⟩ : BufTy).Contents (Elt F) → (⟨S100000x128, .f32⟩ : BufTy).Contents (Elt F)),
    binary main_v108 main_v107 main_v109 (Host.divf : (⟨S100000x128, .f32⟩ : BufTy).Contents (Elt F) → (⟨S100000x128, .f32⟩ : BufTy).Contents (Elt F) → (⟨S100000x128, .f32⟩ : BufTy).Contents (Elt F)),
    binary main_v102 main_v95 main_v110 (mulf : (⟨S100000x128, .f32⟩ : BufTy).Contents (Elt F) → (⟨S100000x128, .f32⟩ : BufTy).Contents (Elt F) → (⟨S100000x128, .f32⟩ : BufTy).Contents (Elt F)),
    binary main_v92 main_v110 main_v111 (addf : (⟨S100000x128, .f32⟩ : BufTy).Contents (Elt F) → (⟨S100000x128, .f32⟩ : BufTy).Contents (Elt F) → (⟨S100000x128, .f32⟩ : BufTy).Contents (Elt F)),
    unary main_v111 main_v112 (Host.tanh : (⟨S100000x128, .f32⟩ : BufTy).Contents (Elt F) → (⟨S100000x128, .f32⟩ : BufTy).Contents (Elt F)),
    nullary main_cst_13 (constant S_ .f32 0x3F800000#32),
    unary main_cst_13 main_v113 (broadcastInDim S100000x128 ![] bcast_S_S100000x128 : (⟨S_, .f32⟩ : BufTy).Contents (Elt F) → (⟨S100000x128, .f32⟩ : BufTy).Contents (Elt F)),
    binary main_v113 main_v109 main_v114 (subf : (⟨S100000x128, .f32⟩ : BufTy).Contents (Elt F) → (⟨S100000x128, .f32⟩ : BufTy).Contents (Elt F) → (⟨S100000x128, .f32⟩ : BufTy).Contents (Elt F)),
    binary main_v114 main_v112 main_v115 (mulf : (⟨S100000x128, .f32⟩ : BufTy).Contents (Elt F) → (⟨S100000x128, .f32⟩ : BufTy).Contents (Elt F) → (⟨S100000x128, .f32⟩ : BufTy).Contents (Elt F)),
    binary main_v109 main_v3 main_v116 (mulf : (⟨S100000x128, .f32⟩ : BufTy).Contents (Elt F) → (⟨S100000x128, .f32⟩ : BufTy).Contents (Elt F) → (⟨S100000x128, .f32⟩ : BufTy).Contents (Elt F)),
    binary main_v115 main_v116 main_v117 (addf : (⟨S100000x128, .f32⟩ : BufTy).Contents (Elt F) → (⟨S100000x128, .f32⟩ : BufTy).Contents (Elt F) → (⟨S100000x128, .f32⟩ : BufTy).Contents (Elt F)),
    binary main_v117 main_arg11 main_v118 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg12 main_v119 (broadcastInDim S1x2 ![1] bcast_S2_S1x2_1 : (⟨S2, .f32⟩ : BufTy).Contents (Elt F) → (⟨S1x2, .f32⟩ : BufTy).Contents (Elt F)),
    unary main_v119 main_v120 (broadcastInDim S100000x2 ![0, 1] bcast_S1x2_S100000x2_0_1 : (⟨S1x2, .f32⟩ : BufTy).Contents (Elt F) → (⟨S100000x2, .f32⟩ : BufTy).Contents (Elt F)),
    binary main_v118 main_v120 main_v121 (addf : (⟨S100000x2, .f32⟩ : BufTy).Contents (Elt F) → (⟨S100000x2, .f32⟩ : BufTy).Contents (Elt F) → (⟨S100000x2, .f32⟩ : BufTy).Contents (Elt F)) ]

/-- Stage G: the outlined log-softmax (15 operations). -/
abbrev opsG : List (HloOp τ sig (Elt F)) :=
  [ TRef.nullary (TRef.of (T := ⟨S_, .f32⟩) main_call0_cst) (constant S_ .f32 0xFF800000#32),
    TRef.binary (TRef.of (T := ⟨S100000x2, .f32⟩) main_v121) (TRef.of (T := ⟨S_, .f32⟩) main_call0_cst) (TRef.of (T := ⟨S100000, .f32⟩) main_call0_v0) (fun x v => Host.reduce FloatOps.maximumf x v reducesTo_S100000x2_S100000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_call0_v0) (TRef.of (T := ⟨S100000, .f32⟩) main_call0_v2) maximumf,
    TRef.unary (TRef.of (T := ⟨S100000, .f32⟩) main_call0_v2) (TRef.of (T := ⟨S100000x1, .f32⟩) main_call0_v3) (broadcastInDim S100000x1 ![0] bcast_S100000_S100000x1_0),
    TRef.unary (TRef.of (T := ⟨S100000x1, .f32⟩) main_call0_v3) (TRef.of (T := ⟨S100000x2, .f32⟩) main_call0_v4) (broadcastInDim S100000x2 ![0, 1] bcast_S100000x1_S100000x2_0_1),
    TRef.binary (TRef.of (T := ⟨S100000x2, .f32⟩) main_v121) (TRef.of (T := ⟨S100000x2, .f32⟩) main_call0_v4) (TRef.of (T := ⟨S100000x2, .f32⟩) main_call0_v5) subf,
    TRef.unary (TRef.of (T := ⟨S100000x2, .f32⟩) main_call0_v5) (TRef.of (T := ⟨S100000x2, .f32⟩) main_call0_v6) Host.exp,
    TRef.nullary (TRef.of (T := ⟨S_, .f32⟩) main_call0_cst_1) (constant S_ .f32 0x00000000#32),
    TRef.binary (TRef.of (T := ⟨S100000x2, .f32⟩) main_call0_v6) (TRef.of (T := ⟨S_, .f32⟩) main_call0_cst_1) (TRef.of (T := ⟨S100000, .f32⟩) main_call0_v7) (fun x v => Host.reduceAdd x v reducesTo_S100000x2_S100000_d1 h_S_),
    TRef.unary (TRef.of (T := ⟨S100000, .f32⟩) main_call0_v7) (TRef.of (T := ⟨S100000x1, .f32⟩) main_call0_v8) (broadcastInDim S100000x1 ![0] bcast_S100000_S100000x1_0),
    TRef.unary (TRef.of (T := ⟨S100000x1, .f32⟩) main_call0_v8) (TRef.of (T := ⟨S100000x1, .f32⟩) main_call0_v9) Host.log,
    TRef.unary (TRef.of (T := ⟨S100000x1, .f32⟩) main_call0_v9) (TRef.of (T := ⟨S100000x2, .f32⟩) main_call0_v10) (broadcastInDim S100000x2 ![0, 1] bcast_S100000x1_S100000x2_0_1),
    TRef.binary (TRef.of (T := ⟨S100000x2, .f32⟩) main_call0_v5) (TRef.of (T := ⟨S100000x2, .f32⟩) main_call0_v10) (TRef.of (T := ⟨S100000x2, .f32⟩) main_v122) subf ]

/-- The six stages in a row are the program. -/
theorem ops_cut : (ops : List (HloOp τ sig (Elt F))) = opsA ++ (opsB ++ (opsC ++ (opsD ++ (opsE ++ opsG)))) := rfl

end Lists

/-! ## Message passing, as the host spells it -/

/-- The edges' source nodes, a negative index wrapped once by the number of nodes, as a column. -/
def srcColumn (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- Gather the source rows, scale by the edge weights, add up at the target nodes. -/
def conv (X : (⟨S100000x128, .f32⟩ : BufTy).Contents (Elt Ideal)) (ei : (⟨S2x1600000, .i32⟩ : BufTy).Contents (Elt Ideal))
    (ew : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (mulf (Host.gather gather_S100000x128_S1600000x1_S1600000x128_1_0_n_n_0_1_1128 X (srcColumn ei))
      (broadcastInDim S1600000x128 ![0, 1] bcast_S1600000x1_S1600000x128_0_1 (broadcastInDim S1600000x1 ![0] bcast_S1600000_S1600000x1_0 ew)))

variable (m : (ℓ : Loc nD τ sig) → Buf (Elt Ideal) ℓ)

/-! ## The stages as functions of the arguments -/

/-- The first dense layer of the node features. -/
def x0 (c : Dev nD) : (⟨S100000x128, .f32⟩ : BufTy).Contents (Elt Ideal) :=
  affine (m ((c.tc : Thread nD τ).loc main_arg0)) (truncf .bf16 (m ((c.tc : Thread nD τ).loc main_arg3)) (by decide : FTy.bf16.bits < FTy.f32.bits)) (shapeCast S1x128 (m ((c.tc : Thread nD τ).loc main_arg4)) (by decide : S128.ShapeCasts S1x128))

abbrev wih (c : Dev nD) : FVec Ideal S128x384 .bf16 :=
  truncf .bf16 (transpose S128x384 [1, 0] (m ((c.tc : Thread nD τ).loc main_arg5)) transposes_S384x128_S128x384_1_0) (by decide : FTy.bf16.bits < FTy.f32.bits)
abbrev whh (c : Dev nD) : FVec Ideal S128x384 .bf16 :=
  truncf .bf16 (transpose S128x384 [1, 0] (m ((c.tc : Thread nD τ).loc main_arg7)) transposes_S384x128_S128x384_1_0) (by decide : FTy.bf16.bits < FTy.f32.bits)
abbrev bih (c : Dev nD) : FVec Ideal S1x384 .f32 := shapeCast S1x384 (m ((c.tc : Thread nD τ).loc main_arg6)) (by decide : S384.ShapeCasts S1x384)
abbrev bhh (c : Dev nD) : FVec Ideal S1x384 .f32 := shapeCast S1x384 (m ((c.tc : Thread nD τ).loc main_arg8)) (by decide : S384.ShapeCasts S1x384)

/-- After one round of message passing: the cell on the messages and the state x0, then a dense layer. -/
def x2 (c : Dev nD) : (⟨S100000x128, .f32⟩ : BufTy).Contents (Elt Ideal) :=
  gruDense (conv (x0 m c) (m ((c.tc : Thread nD τ).loc main_arg1)) (m ((c.tc : Thread nD τ).loc main_arg2))) (x0 m c) (wih m c) (bih m c) (whh m c) (bhh m c)
    (truncf .bf16 (m ((c.tc : Thread nD τ).loc main_arg9)) (by decide : FTy.bf16.bits < FTy.f32.bits)) (shapeCast S1x128 (m ((c.tc : Thread nD τ).loc main_arg10)) (by decide : S128.ShapeCasts S1x128))

/-- The two logits after the second round. -/
def logits (c : Dev nD) : (⟨S100000x2, .f32⟩ : BufTy).Contents (Elt Ideal) :=
  gruDense (conv (x2 m c) (m ((c.tc : Thread nD τ).loc main_arg1)) (m ((c.tc : Thread nD τ).loc main_arg2))) (x0 m c) (wih m c) (bih m c) (whh m c) (bhh m c)
    (truncf .bf16 (m ((c.tc : Thread nD τ).loc main_arg11)) (by decide : FTy.bf16.bits < FTy.f32.bits)) (shapeCast S1x2 (m ((c.tc : Thread nD τ).loc main_arg12)) (by decide : S2.ShapeCasts S1x2))

/-- After the second round: the cell, the classifier and the log-softmax. -/
def result (c : Dev nD) : (⟨S100000x2, .f32⟩ : BufTy).Contents (Elt Ideal) :=
  gruClassify (conv (x2 m c) (m ((c.tc : Thread nD τ).loc main_arg1)) (m ((c.tc : Thread nD τ).loc main_arg2))) (x0 m c) (wih m c) (bih m c) (whh m c) (bhh m c)
    (truncf .bf16 (m ((c.tc : Thread nD τ).loc main_arg11)) (by decide : FTy.bf16.bits < FTy.f32.bits)) (shapeCast S1x2 (m ((c.tc : Thread nD τ).loc main_arg12)) (by decide : S2.ShapeCasts S1x2))

/-! ## The buffer contents after each stage -/

def WA (c : Dev nD) : Valuation τ sig (Elt Ideal) := after opsA (launchContents m c)
def WB (c : Dev nD) : Valuation τ sig (Elt Ideal) := after opsB (WA m c)
def WC (c : Dev nD) : Valuation τ sig (Elt Ideal) := after opsC (WB m c)
def WD (c : Dev nD) : Valuation τ sig (Elt Ideal) := after opsD (WC m c)
def WE (c : Dev nD) : Valuation τ sig (Elt Ideal) := after opsE (WD m c)

theorem after_ops (c : Dev nD) : after ops (launchContents m c) = after opsG (WE m c) := by
  rw [ops_cut, Fold.after_append, Fold.after_append, Fold.after_append, Fold.after_append, Fold.after_append]
  rfl

/-! ### Stage A -/

theorem WA_x0 (c : Dev nD) : WA m c (Proc.devRef .tc main_v3) = x0 m c := by
  show after opsA (launchContents m c) (Proc.devRef .tc main_v3) = _
  after_results
  exact hostDense (K := 128) (M := 128) _ _ _ _ _ _ _
theorem WA_arg1 (c : Dev nD) : WA m c (Proc.devRef .tc main_arg1) = (m ((c.tc : Thread nD τ).loc main_arg1)) := by
  show after opsA (launchContents m c) (Proc.devRef .tc main_arg1) = _
  after_results <;> rfl
theorem WA_arg2 (c : Dev nD) : WA m c (Proc.devRef .tc main_arg2) = (m ((c.tc : Thread nD τ).loc main_arg2)) := by
  show after opsA (launchContents m c) (Proc.devRef .tc main_arg2) = _
  after_results <;> rfl
theorem WA_arg5 (c : Dev nD) : WA m c (Proc.devRef .tc main_arg5) = (m ((c.tc : Thread nD τ).loc main_arg5)) := by
  show after opsA (launchContents m c) (Proc.devRef .tc main_arg5) = _
  after_results <;> rfl
theorem WA_arg6 (c : Dev nD) : WA m c (Proc.devRef .tc main_arg6) = (m ((c.tc : Thread nD τ).loc main_arg6)) := by
  show after opsA (launchContents m c) (Proc.devRef .tc main_arg6) = _
  after_results <;> rfl
theorem WA_arg7 (c : Dev nD) : WA m c (Proc.devRef .tc main_arg7) = (m ((c.tc : Thread nD τ).loc main_arg7)) := by
  show after opsA (launchContents m c) (Proc.devRef .tc main_arg7) = _
  after_results <;> rfl
theorem WA_arg8 (c : Dev nD) : WA m c (Proc.devRef .tc main_arg8) = (m ((c.tc : Thread nD τ).loc main_arg8)) := by
  show after opsA (launchContents m c) (Proc.devRef .tc main_arg8) = _
  after_results <;> rfl
theorem WA_arg9 (c : Dev nD) : WA m c (Proc.devRef .tc main_arg9) = (m ((c.tc : Thread nD τ).loc main_arg9)) := by
  show after opsA (launchContents m c) (Proc.devRef .tc main_arg9) = _
  after_results <;> rfl
theorem WA_arg10 (c : Dev nD) : WA m c (Proc.devRef .tc main_arg10) = (m ((c.tc : Thread nD τ).loc main_arg10)) := by
  show after opsA (launchContents m c) (Proc.devRef .tc main_arg10) = _
  after_results <;> rfl
theorem WA_arg11 (c : Dev nD) : WA m c (Proc.devRef .tc main_arg11) = (m ((c.tc : Thread nD τ).loc main_arg11)) := by
  show after opsA (launchContents m c) (Proc.devRef .tc main_arg11) = _
  after_results <;> rfl
theorem WA_arg12 (c : Dev nD) : WA m c (Proc.devRef .tc main_arg12) = (m ((c.tc : Thread nD τ).loc main_arg12)) := by
  show after opsA (launchContents m c) (Proc.devRef .tc main_arg12) = _
  after_results <;> rfl

/-! ### Stage B -/

theorem WB_msg (c : Dev nD) : WB m c (Proc.devRef .tc main_v20) = conv (x0 m c) (m ((c.tc : Thread nD τ).loc main_arg1)) (m ((c.tc : Thread nD τ).loc main_arg2)) := by
  show after opsB (WA m c) (Proc.devRef .tc main_v20) = _
  after_results_simp
  rw [WA_x0, WA_arg1, WA_arg2]; rfl
theorem WB_x0 (c : Dev nD) : WB m c (Proc.devRef .tc main_v3) = x0 m c := by
  show after opsB (WA m c) (Proc.devRef .tc main_v3) = _
  after_results_simp
  exact WA_x0 m c
theorem WB_arg1 (c : Dev nD) : WB m c (Proc.devRef .tc main_arg1) = (m ((c.tc : Thread nD τ).loc main_arg1)) := by
  show after opsB (WA m c) (Proc.devRef .tc main_arg1) = _
  after_results_simp
  exact WA_arg1 m c
theorem WB_arg2 (c : Dev nD) : WB m c (Proc.devRef .tc main_arg2) = (m ((c.tc : Thread nD τ).loc main_arg2)) := by
  show after opsB (WA m c) (Proc.devRef .tc main_arg2) = _
  after_results_simp
  exact WA_arg2 m c
theorem WB_arg5 (c : Dev nD) : WB m c (Proc.devRef .tc main_arg5) = (m ((c.tc : Thread nD τ).loc main_arg5)) := by
  show after opsB (WA m c) (Proc.devRef .tc main_arg5) = _
  after_results_simp
  exact WA_arg5 m c
theorem WB_arg6 (c : Dev nD) : WB m c (Proc.devRef .tc main_arg6) = (m ((c.tc : Thread nD τ).loc main_arg6)) := by
  show after opsB (WA m c) (Proc.devRef .tc main_arg6) = _
  after_results_simp
  exact WA_arg6 m c
theorem WB_arg7 (c : Dev nD) : WB m c (Proc.devRef .tc main_arg7) = (m ((c.tc : Thread nD τ).loc main_arg7)) := by
  show after opsB (WA m c) (Proc.devRef .tc main_arg7) = _
  after_results_simp
  exact WA_arg7 m c
theorem WB_arg8 (c : Dev nD) : WB m c (Proc.devRef .tc main_arg8) = (m ((c.tc : Thread nD τ).loc main_arg8)) := by
  show after opsB (WA m c) (Proc.devRef .tc main_arg8) = _
  after_results_simp
  exact WA_arg8 m c
theorem WB_arg9 (c : Dev nD) : WB m c (Proc.devRef .tc main_arg9) = (m ((c.tc : Thread nD τ).loc main_arg9)) := by
  show after opsB (WA m c) (Proc.devRef .tc main_arg9) = _
  after_results_simp
  exact WA_arg9 m c
theorem WB_arg10 (c : Dev nD) : WB m c (Proc.devRef .tc main_arg10) = (m ((c.tc : Thread nD τ).loc main_arg10)) := by
  show after opsB (WA m c) (Proc.devRef .tc main_arg10) = _
  after_results_simp
  exact WA_arg10 m c
theorem WB_arg11 (c : Dev nD) : WB m c (Proc.devRef .tc main_arg11) = (m ((c.tc : Thread nD τ).loc main_arg11)) := by
  show after opsB (WA m c) (Proc.devRef .tc main_arg11) = _
  after_results_simp
  exact WA_arg11 m c
theorem WB_arg12 (c : Dev nD) : WB m c (Proc.devRef .tc main_arg12) = (m ((c.tc : Thread nD τ).loc main_arg12)) := by
  show after opsB (WA m c) (Proc.devRef .tc main_arg12) = _
  after_results_simp
  exact WA_arg12 m c

/-! ### Stage C -/

/-- The cell and a dense layer after it in the host's spelling, over the stage's inputs. -/
theorem cell_dense {M : Nat} (Ms X : FVec Ideal S100000x128 .f32) (w5 w7 : FVec Ideal S384x128 .f32) (b6 b8 : FVec Ideal S384 .f32)
    (wl : FVec Ideal ⟨2, ![128, M]⟩ .f32) (bl : FVec Ideal ⟨1, ![M]⟩ .f32)
    (hd : DotDims ⟨2, ![100000, 128]⟩ ⟨2, ![128, M]⟩ ⟨2, ![100000, M]⟩) (hdp : hd = DotDims.plain 100000 128 M)
    (h1 : (⟨1, ![M]⟩ : Shape).BroadcastsInDim ⟨2, ![1, M]⟩ ![1]) (h2 : (⟨2, ![1, M]⟩ : Shape).BroadcastsInDim ⟨2, ![100000, M]⟩ ![0, 1])
    (hc : (⟨1, ![M]⟩ : Shape).ShapeCasts ⟨2, ![1, M]⟩) :
    addf (Host.dotGeneral hd none
        (hostCell
          (addf (Host.dotGeneral dot_S100000x128_S128x384_S100000x384_1_0_0_1_n_n none Ms (transpose S128x384 [1, 0] w5 transposes_S384x128_S128x384_1_0))
            (broadcastInDim S100000x384 ![0, 1] bcast_S1x384_S100000x384_0_1 (broadcastInDim S1x384 ![1] bcast_S384_S1x384_1 b6)))
          (addf (Host.dotGeneral dot_S100000x128_S128x384_S100000x384_1_0_0_1_n_n none X (transpose S128x384 [1, 0] w7 transposes_S384x128_S128x384_1_0))
            (broadcastInDim S100000x384 ![0, 1] bcast_S1x384_S100000x384_0_1 (broadcastInDim S1x384 ![1] bcast_S384_S1x384_1 b8)))
          X) wl)
        (broadcastInDim ⟨2, ![100000, M]⟩ ![0, 1] h2 (broadcastInDim ⟨2, ![1, M]⟩ ![1] h1 bl))
      = gruDense Ms X (truncf .bf16 (transpose S128x384 [1, 0] w5 transposes_S384x128_S128x384_1_0) (by decide : FTy.bf16.bits < FTy.f32.bits)) (shapeCast S1x384 b6 (by decide))
          (truncf .bf16 (transpose S128x384 [1, 0] w7 transposes_S384x128_S128x384_1_0) (by decide : FTy.bf16.bits < FTy.f32.bits)) (shapeCast S1x384 b8 (by decide))
          (truncf .bf16 wl (by decide : FTy.bf16.bits < FTy.f32.bits)) (shapeCast ⟨2, ![1, M]⟩ bl hc) := by
  subst hdp
  rw [show addf (Host.dotGeneral dot_S100000x128_S128x384_S100000x384_1_0_0_1_n_n none Ms (transpose S128x384 [1, 0] w5 transposes_S384x128_S128x384_1_0))
        (broadcastInDim S100000x384 ![0, 1] bcast_S1x384_S100000x384_0_1 (broadcastInDim S1x384 ![1] bcast_S384_S1x384_1 b6))
      = affine Ms (truncf .bf16 (transpose S128x384 [1, 0] w5 transposes_S384x128_S128x384_1_0) (by decide : FTy.bf16.bits < FTy.f32.bits)) (shapeCast S1x384 b6 (by decide))
      from hostDense (K := 128) (M := 384) _ _ _ _ _ _ _,
    show addf (Host.dotGeneral dot_S100000x128_S128x384_S100000x384_1_0_0_1_n_n none X (transpose S128x384 [1, 0] w7 transposes_S384x128_S128x384_1_0))
        (broadcastInDim S100000x384 ![0, 1] bcast_S1x384_S100000x384_0_1 (broadcastInDim S1x384 ![1] bcast_S384_S1x384_1 b8))
      = affine X (truncf .bf16 (transpose S128x384 [1, 0] w7 transposes_S384x128_S128x384_1_0) (by decide : FTy.bf16.bits < FTy.f32.bits)) (shapeCast S1x384 b8 (by decide))
      from hostDense (K := 128) (M := 384) _ _ _ _ _ _ _,
    hostCell_eq]
  exact hostDense (K := 128) (M := M) _ _ _ _ _ _ _

theorem WC_x2 (c : Dev nD) : WC m c (Proc.devRef .tc main_v62) = x2 m c := by
  show after opsC (WB m c) (Proc.devRef .tc main_v62) = _
  after_results_simp
  rw [WB_msg, WB_x0, WB_arg5, WB_arg6, WB_arg7, WB_arg8, WB_arg9, WB_arg10]
  exact cell_dense (M := 128) _ _ _ _ _ _ _ _ dot_S100000x128_S128x128_S100000x128_1_0_0_1_n_n rfl _ _ _
theorem WC_x0 (c : Dev nD) : WC m c (Proc.devRef .tc main_v3) = x0 m c := by
  show after opsC (WB m c) (Proc.devRef .tc main_v3) = _
  after_results_simp
  exact WB_x0 m c
theorem WC_arg1 (c : Dev nD) : WC m c (Proc.devRef .tc main_arg1) = (m ((c.tc : Thread nD τ).loc main_arg1)) := by
  show after opsC (WB m c) (Proc.devRef .tc main_arg1) = _
  after_results_simp
  exact WB_arg1 m c
theorem WC_arg2 (c : Dev nD) : WC m c (Proc.devRef .tc main_arg2) = (m ((c.tc : Thread nD τ).loc main_arg2)) := by
  show after opsC (WB m c) (Proc.devRef .tc main_arg2) = _
  after_results_simp
  exact WB_arg2 m c
theorem WC_arg5 (c : Dev nD) : WC m c (Proc.devRef .tc main_arg5) = (m ((c.tc : Thread nD τ).loc main_arg5)) := by
  show after opsC (WB m c) (Proc.devRef .tc main_arg5) = _
  after_results_simp
  exact WB_arg5 m c
theorem WC_arg6 (c : Dev nD) : WC m c (Proc.devRef .tc main_arg6) = (m ((c.tc : Thread nD τ).loc main_arg6)) := by
  show after opsC (WB m c) (Proc.devRef .tc main_arg6) = _
  after_results_simp
  exact WB_arg6 m c
theorem WC_arg7 (c : Dev nD) : WC m c (Proc.devRef .tc main_arg7) = (m ((c.tc : Thread nD τ).loc main_arg7)) := by
  show after opsC (WB m c) (Proc.devRef .tc main_arg7) = _
  after_results_simp
  exact WB_arg7 m c
theorem WC_arg8 (c : Dev nD) : WC m c (Proc.devRef .tc main_arg8) = (m ((c.tc : Thread nD τ).loc main_arg8)) := by
  show after opsC (WB m c) (Proc.devRef .tc main_arg8) = _
  after_results_simp
  exact WB_arg8 m c
theorem WC_arg11 (c : Dev nD) : WC m c (Proc.devRef .tc main_arg11) = (m ((c.tc : Thread nD τ).loc main_arg11)) := by
  show after opsC (WB m c) (Proc.devRef .tc main_arg11) = _
  after_results_simp
  exact WB_arg11 m c
theorem WC_arg12 (c : Dev nD) : WC m c (Proc.devRef .tc main_arg12) = (m ((c.tc : Thread nD τ).loc main_arg12)) := by
  show after opsC (WB m c) (Proc.devRef .tc main_arg12) = _
  after_results_simp
  exact WB_arg12 m c

/-! ### Stage D -/

theorem WD_msg (c : Dev nD) : WD m c (Proc.devRef .tc main_v79) = conv (x2 m c) (m ((c.tc : Thread nD τ).loc main_arg1)) (m ((c.tc : Thread nD τ).loc main_arg2)) := by
  show after opsD (WC m c) (Proc.devRef .tc main_v79) = _
  after_results_simp
  rw [WC_x2, WC_arg1, WC_arg2]; rfl
theorem WD_x0 (c : Dev nD) : WD m c (Proc.devRef .tc main_v3) = x0 m c := by
  show after opsD (WC m c) (Proc.devRef .tc main_v3) = _
  after_results_simp
  exact WC_x0 m c
theorem WD_arg5 (c : Dev nD) : WD m c (Proc.devRef .tc main_arg5) = (m ((c.tc : Thread nD τ).loc main_arg5)) := by
  show after opsD (WC m c) (Proc.devRef .tc main_arg5) = _
  after_results_simp
  exact WC_arg5 m c
theorem WD_arg6 (c : Dev nD) : WD m c (Proc.devRef .tc main_arg6) = (m ((c.tc : Thread nD τ).loc main_arg6)) := by
  show after opsD (WC m c) (Proc.devRef .tc main_arg6) = _
  after_results_simp
  exact WC_arg6 m c
theorem WD_arg7 (c : Dev nD) : WD m c (Proc.devRef .tc main_arg7) = (m ((c.tc : Thread nD τ).loc main_arg7)) := by
  show after opsD (WC m c) (Proc.devRef .tc main_arg7) = _
  after_results_simp
  exact WC_arg7 m c
theorem WD_arg8 (c : Dev nD) : WD m c (Proc.devRef .tc main_arg8) = (m ((c.tc : Thread nD τ).loc main_arg8)) := by
  show after opsD (WC m c) (Proc.devRef .tc main_arg8) = _
  after_results_simp
  exact WC_arg8 m c
theorem WD_arg11 (c : Dev nD) : WD m c (Proc.devRef .tc main_arg11) = (m ((c.tc : Thread nD τ).loc main_arg11)) := by
  show after opsD (WC m c) (Proc.devRef .tc main_arg11) = _
  after_results_simp
  exact WC_arg11 m c
theorem WD_arg12 (c : Dev nD) : WD m c (Proc.devRef .tc main_arg12) = (m ((c.tc : Thread nD τ).loc main_arg12)) := by
  show after opsD (WC m c) (Proc.devRef .tc main_arg12) = _
  after_results_simp
  exact WC_arg12 m c

/-! ### Stage E -/

theorem WE_logits (c : Dev nD) : WE m c (Proc.devRef .tc main_v121) = logits m c := by
  show after opsE (WD m c) (Proc.devRef .tc main_v121) = _
  after_results_simp
  rw [WD_msg, WD_x0, WD_arg5, WD_arg6, WD_arg7, WD_arg8, WD_arg11, WD_arg12]
  exact cell_dense (M := 2) _ _ _ _ _ _ _ _ dot_S100000x128_S128x2_S100000x2_1_0_0_1_n_n rfl _ _ _

/-! ### Stage G, and the whole program -/

/-- A value moved to another spelling of its type and back is itself (an outlined function's operations move each
    value to its buffer's own type and back). -/
theorem cast_back {α β : Type} (h : α = β) (h' : β = α) (v : α) : cast h' (cast h v) = v := by subst h; rfl

/-- The outlined log-softmax, from any contents: the host's log-softmax text of the logits buffer. -/
theorem stageG (W : Valuation τ sig (Elt Ideal)) :
    after opsG W (Proc.devRef .tc main_v122) = hostLsm (W (Proc.devRef .tc main_v121)) := by
  after_results_simp
  simp only [cast_back]
  rfl

/-- The result buffer after the whole program: the result function of the arguments. -/
theorem value (c : Dev nD) : after ops (launchContents m c) (Proc.devRef .tc main_v122) = result m c := by
  rw [after_ops, stageG, WE_logits, hostLsm_eq]
  rfl

/-! ## The run -/

theorem kept0 (c : Dev nD) : after ops (launchContents m c) (Proc.devRef .tc main_arg0) = (m ((c.tc : Thread nD τ).loc main_arg0)) := by
  after_results_simp <;> rfl
theorem kept1 (c : Dev nD) : after ops (launchContents m c) (Proc.devRef .tc main_arg1) = (m ((c.tc : Thread nD τ).loc main_arg1)) := by
  after_results_simp <;> rfl
theorem kept2 (c : Dev nD) : after ops (launchContents m c) (Proc.devRef .tc main_arg2) = (m ((c.tc : Thread nD τ).loc main_arg2)) := by
  after_results_simp <;> rfl
theorem kept3 (c : Dev nD) : after ops (launchContents m c) (Proc.devRef .tc main_arg3) = (m ((c.tc : Thread nD τ).loc main_arg3)) := by
  after_results_simp <;> rfl
theorem kept4 (c : Dev nD) : after ops (launchContents m c) (Proc.devRef .tc main_arg4) = (m ((c.tc : Thread nD τ).loc main_arg4)) := by
  after_results_simp <;> rfl
theorem kept5 (c : Dev nD) : after ops (launchContents m c) (Proc.devRef .tc main_arg5) = (m ((c.tc : Thread nD τ).loc main_arg5)) := by
  after_results_simp <;> rfl
theorem kept6 (c : Dev nD) : after ops (launchContents m c) (Proc.devRef .tc main_arg6) = (m ((c.tc : Thread nD τ).loc main_arg6)) := by
  after_results_simp <;> rfl
theorem kept7 (c : Dev nD) : after ops (launchContents m c) (Proc.devRef .tc main_arg7) = (m ((c.tc : Thread nD τ).loc main_arg7)) := by
  after_results_simp <;> rfl
theorem kept8 (c : Dev nD) : after ops (launchContents m c) (Proc.devRef .tc main_arg8) = (m ((c.tc : Thread nD τ).loc main_arg8)) := by
  after_results_simp <;> rfl
theorem kept9 (c : Dev nD) : after ops (launchContents m c) (Proc.devRef .tc main_arg9) = (m ((c.tc : Thread nD τ).loc main_arg9)) := by
  after_results_simp <;> rfl
theorem kept10 (c : Dev nD) : after ops (launchContents m c) (Proc.devRef .tc main_arg10) = (m ((c.tc : Thread nD τ).loc main_arg10)) := by
  after_results_simp <;> rfl
theorem kept11 (c : Dev nD) : after ops (launchContents m c) (Proc.devRef .tc main_arg11) = (m ((c.tc : Thread nD τ).loc main_arg11)) := by
  after_results_simp <;> rfl
theorem kept12 (c : Dev nD) : after ops (launchContents m c) (Proc.devRef .tc main_arg12) = (m ((c.tc : Thread nD τ).loc main_arg12)) := by
  after_results_simp <;> rfl

/-- Every weakly fair execution of the reference terminates, nothing faulting, with the result buffer at the function result
    of the argument arrays and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v122) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v122).trans (value m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c),
      (h c main_arg8).trans (kept8 m c),
      (h c main_arg9).trans (kept9 m c),
      (h c main_arg10).trans (kept10 m c),
      (h c main_arg11).trans (kept11 m c),
      (h c main_arg12).trans (kept12 m c)⟩)
    (run_seq scopedRefs_eq scopedSems_eq defs main (fun _ => ops) main_eq (fun _ => ops_sub) m ρ)

end Cert.ReferenceIdeal.Stages

end
-- ==== Proof.lean ====
/-
  The idealized kernel and the idealized reference compute one function of their arguments, over the extended reals.

  Both are: a dense layer x0 of the node features; a round of message passing (gather the source rows, scale by the edge
  weights, add up at the targets); a gated recurrent cell on the messages and the state x0; a dense layer; a second round of
  message passing; the cell again on the same state x0; a dense layer onto two classes; the log-softmax of each row.
  The kernel computes the three row-wise parts in three regions tiled over blocks of 2000 rows, rounding matrix-product operands to
  bf16 (the identity here) and spelling the logistic function by one operation; the reference computes them on the whole
  arrays with the logistic function written out. Row-wise layers read one row for one row, so the tiling is invisible, and no law
  used needs an entry to be finite: the precondition is never opened.
  The kernel's result array is read off its three regions' write-backs (KernelRun), the reference's off its operation list
  stage by stage (RefStages); the message passing is the same chain of host operations in both and is never opened.
-/
import proofs.«118627_j73658689126816_1_alg».proof.Defs
import proofs.«118627_j73658689126816_1_alg».proof.Proof.Gen.Kernel
import proofs.«118627_j73658689126816_1_alg».proof.Proof.Gen.Kernel.Skeleton
import proofs.«118627_j73658689126816_1_alg».proof.Proof.Gen.Kernel.Launch
import proofs.«118627_j73658689126816_1_alg».proof.Proof.Gen.Kernel.Points
import proofs.«118627_j73658689126816_1_alg».proof.Proof.Gen.Kernel.Frame
import proofs.«118627_j73658689126816_1_alg».proof.Proof.Gen.KernelIdeal
import proofs.«118627_j73658689126816_1_alg».proof.Proof.Gen.KernelIdeal.Skeleton
import proofs.«118627_j73658689126816_1_alg».proof.Proof.Gen.KernelIdeal.Launch
import proofs.«118627_j73658689126816_1_alg».proof.Proof.Gen.KernelIdeal.Points
import proofs.«118627_j73658689126816_1_alg».proof.Proof.Gen.KernelIdeal.Frame
import proofs.«118627_j73658689126816_1_alg».proof.Proof.Gen.ReferenceIdeal
import proofs.«118627_j73658689126816_1_alg».proof.Proof.Gen.Pre_finite_inputs
import proofs.«118627_j73658689126816_1_alg».proof.Proof.KernelRun
import proofs.«118627_j73658689126816_1_alg».proof.Proof.RefStages
import Idealize.ShloMosaic.Adequacy
import Idealize.ShloMosaic.Init

set_option maxRecDepth 16384

noncomputable section

namespace Cert.Proof

open Idealize.ShloMosaic Idealize.SL.Sem

/-- The message passing is one chain of host operations, spelt alike in the two programs. -/
theorem conv_eq : @Cert.ReferenceIdeal.Stages.conv = @Cert.KernelIdeal.Net.conv := rfl

/-- From arguments that agree, the two programs' result functions are one. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Stages.result m' c = Cert.KernelIdeal.Net.result m c := by
  obtain ⟨h0, h1, h2, h3, h4, h5, h6, h7, h8, h9, h10, h11, h12⟩ := h
  unfold Cert.ReferenceIdeal.Stages.result Cert.ReferenceIdeal.Stages.x2 Cert.ReferenceIdeal.Stages.x0
    Cert.ReferenceIdeal.Stages.wih Cert.ReferenceIdeal.Stages.whh Cert.ReferenceIdeal.Stages.bih Cert.ReferenceIdeal.Stages.bhh
  rw [h0, h1, h2, h3, h4, h5, h6, h7, h8, h9, h10, h11, h12, conv_eq]
  rfl

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run m ρ)

/-- Both programs run, end with the same result array (the one function of the arguments) and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Stages.run m' ρ')
  exact result_eq m m' c (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
